-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 141
  | .vmem => 26
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S_, .f32⟩
  | 29 => ⟨S1700000, .f32⟩
  | 30 => ⟨S100000, .f32⟩
  | 31 => ⟨S100000, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S100000x128, .f32⟩
  | 120 => ⟨S1x128, .f32⟩
  | 121 => ⟨S100000x128, .f32⟩
  | 122 => ⟨S_, .f32⟩
  | 123 => ⟨S1024x128, .f32⟩
  | 124 => ⟨S100000x1, .i32⟩
  | 125 => ⟨S1024x128, .f32⟩
  | 126 => ⟨S_, .f32⟩
  | 127 => ⟨S100000, .f32⟩
  | _ => ⟨S100000x128, .f32⟩

abbrev hbmTy0_1 (i : Nat) : BufTy := match i % 128 with
  | 0 => ⟨S_, .f32⟩
  | 1 => ⟨S1024, .f32⟩
  | 2 => ⟨S100000x1, .i32⟩
  | 3 => ⟨S1024, .f32⟩
  | 4 => ⟨S_, .f32⟩
  | 5 => ⟨S1024, .f32⟩
  | 6 => ⟨S1024, .f32⟩
  | 7 => ⟨S1024x1, .f32⟩
  | 8 => ⟨S1024x128, .f32⟩
  | 9 => ⟨S1024x128, .f32⟩
  | 10 => ⟨S1x128, .f32⟩
  | 11 => ⟨S1x2, .f32⟩
  | 12 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1024x128, .f32⟩
  | .local _ .vmem, ⟨21, _⟩ => ⟨S128x128, .f32⟩
  | .local _ .vmem, ⟨22, _⟩ => ⟨S1x128, .f32⟩
  | .local _ .vmem, ⟨23, _⟩ => ⟨S128x2, .f32⟩
  | .local _ .vmem, ⟨24, _⟩ => ⟨S1x2, .f32⟩
  | .local _ .vmem, ⟨25, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_c_18 : Ref sig .tc := ⟨.hbm, 111, rfl⟩
abbrev main_v80 : Ref sig .tc := ⟨.hbm, 112, rfl⟩
abbrev main_v81 : Ref sig .tc := ⟨.hbm, 113, rfl⟩
abbrev main_c_19 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_cst_22 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1024x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x128_S1024x128_1_0_0_1_n_n_wf : DotDims.WF S1024x128 S128x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x2.size a ≤ S128x2.size a
  hwx4_3 : ∀ i : grid4.Coords, EltTy.bits .f32 = 32 ∨ (Rect.block (s := S128x2) S128x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1024x2.size a ≤ S1024x2.size a
  hwx4_5 : ∀ i : grid4.Coords, EltTy.bits .f32 = 32 ∨ (Rect.block (s := S1024x2) S1024x2.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v100) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v102) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103) S1024x2.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S100000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S_, .f32⟩
  | 29 => ⟨S1700000, .f32⟩
  | 30 => ⟨S100000, .f32⟩
  | 31 => ⟨S100000, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S1024x128, .f32⟩
  | 4 => ⟨S100000x1, .i32⟩
  | 5 => ⟨S1024x128, .f32⟩
  | 6 => ⟨S_, .f32⟩
  | 7 => ⟨S100000, .f32⟩
  | 8 => ⟨S_, .f32⟩
  | 9 => ⟨S1024, .f32⟩
  | 10 => ⟨S100000x1, .i32⟩
  | 11 => ⟨S1024, .f32⟩
  | 12 => ⟨S_, .f32⟩
  | 13 => ⟨S1024, .f32⟩
  | 14 => ⟨S1024, .f32⟩
  | 15 => ⟨S1024x1, .f32⟩
  | 16 => ⟨S1024x128, .f32⟩
  | 17 => ⟨S1024x128, .f32⟩
  | 18 => ⟨S1024x128, .f32⟩
  | 19 => ⟨S1x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S1024x2, .f32⟩
  | 26 => ⟨S1x2, .f32⟩
  | 27 => ⟨S1024x2, .f32⟩
  | 28 => ⟨S1024x2, .f32⟩
  | 29 => ⟨S_, .f32⟩
  | 30 => ⟨S1024, .f32⟩
  | 31 => ⟨S_, .f32⟩
  | 32 => ⟨S1024, .f32⟩
  | 33 => ⟨S1024, .f32⟩
  | 34 => ⟨S1024x1, .f32⟩
  | 35 => ⟨S1024x2, .f32⟩
  | 36 => ⟨S1024x2, .f32⟩
  | 37 => ⟨S1024x2, .f32⟩
  | 38 => ⟨S_, .f32⟩
  | 39 => ⟨S1024, .f32⟩
  | 40 => ⟨S1024x1, .f32⟩
  | 41 => ⟨S1024x1, .f32⟩
  | 42 => ⟨S1024x2, .f32⟩
  | 43 => ⟨S1024x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call0_cst : Ref sig .tc := ⟨.hbm, 78, rfl⟩
abbrev main_call0_v0 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call1_cst : Ref sig .tc := ⟨.hbm, 127, rfl⟩
abbrev main_call1_v0 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_21 : Ref sig .tc := ⟨.hbm, 134, rfl⟩
abbrev main_v96 : Ref sig .tc := ⟨.hbm, 135, rfl⟩
abbrev main_cst_22 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_23 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call2_cst : Ref sig .tc := ⟨.hbm, 150, rfl⟩
abbrev main_call2_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call3_cst : Ref sig .tc := ⟨.hbm, 157, rfl⟩
abbrev main_call3_v0 : Ref sig .tc := ⟨.hbm, 158, rfl⟩
abbrev main_call3_cst_0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_v6 : Ref sig .tc := ⟨.hbm, 165, rfl⟩
abbrev main_call3_cst_1 : Ref sig .tc := ⟨.hbm, 166, rfl⟩
abbrev main_call3_v7 : Ref sig .tc := ⟨.hbm, 167, rfl⟩
abbrev main_call3_v8 : Ref sig .tc := ⟨.hbm, 168, rfl⟩
abbrev main_call3_v9 : Ref sig .tc := ⟨.hbm, 169, rfl⟩
abbrev main_call3_v10 : Ref sig .tc := ⟨.hbm, 170, rfl⟩
abbrev main_v114 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  reducesTo_S1024x2_S1024_d1 : S1024x2.ReducesTo [1] S1024
  h_S_ : 0 < S_.numel
  bcast_S1024x1_S1024x2_0_1 : S1024x1.BroadcastsInDim S1024x2 (![0, 1] : Fin 2 → Fin S1024x2.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x128_S1024x128_1_0_0_1_n_n_wf : DotDims.WF S1024x128 S128x128 S1024x128 [1] [0] [0] [1] [] []
  dot_S1024x128_S128x2_S1024x2_1_0_0_1_n_n_wf : DotDims.WF S1024x128 S128x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.KernelRun.lean ====
/-
  The idealized kernel's run with its result named.

  @main is nine segments: four stretches of host operations and five pipelined kernel regions. The buffer contents at
  each segment boundary form a fold from the launch memory: a host stretch applies its operations, a region replaces
  its output array by what its grid points wrote back and leaves every other buffer alone. Every weakly fair execution
  terminates with every unscoped buffer at the last boundary's contents; here that is read at the result buffer (the
  [1024, 2] array of log-probabilities) as well as at the eleven arguments, which end as launched.
-/
import proofs.«139044_j69286412419204_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v103) = W9 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v103 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.LibDenseBias.lean ====
/-
  A dense layer's two steps read entry by entry on the extended reals, as a kernel spells them on a block of rows and as
  the host spells them on the whole array; any extents.

  The product.  A kernel multiplies a block of rows of the left matrix by the whole right matrix, both narrowed to bf16
  first (which changes nothing on the extended reals), into a zero accumulator; the host multiplies the whole matrices.
  Either way the entry (p, q) is the sum over k of A (p, k) · B (k, q) (dense_block_entry, dense_host_entry): an entry of the
  product reads one row of the left factor, so a block of rows of the product is the product of that block of rows.

  The bias step.  A kernel adds a one-row matrix [1, b], repeated down the rows of its block (row_down_entry), and may take
  the maximum with zero; the host adds the row repeated down all rows by broadcast_in_dim (row_down_host_entry) and takes
  the same maximum against the zero matrix.  Entry (p, q) is x (p, q) + row (0, q), or its maximum with 0
  (bias_block_entry, bias_relu_block_entry, bias_host_entry, bias_relu_host_entry).  A bias vector [b] laid as the row
  [1, b] by a reshape or by a broadcast_in_dim along the last axis is the same row (bias_row_eq).

  It imports this unit's copies of LibPlainDot.lean and LibHostDot.lean.
-/
import Idealize.ShloMosaic.Lib.ValueIdx
import Idealize.ShloMosaic.Lib.ValueLayout
import Idealize.ShloMosaic.Lib.Pipeline.Value
import Idealize.ShloMosaic.PureOps.Ideal.Laws
import proofs.«139044_j69286412419204_1_alg».proof.Proof.LibPlainDot
import proofs.«139044_j69286412419204_1_alg».proof.Proof.LibHostDot

noncomputable section

namespace Cert.Lib.DenseBias

open Idealize.ShloMosaic Idealize.ShloMosaic.ValueIdx

variable {M K N : ℕ}

/-- The kernel's product of a block of rows, both factors narrowed to bf16, into the zero accumulator: entry (p, q) is
    the sum over k of x0 (p, k) · x1 (k, q). -/
theorem dense_block_entry (h : FTy.bits .bf16 < FTy.bits .f32)
    (x0 : FVec Ideal ⟨2, ![M, K]⟩ .f32) (x1 : FVec Ideal ⟨2, ![K, N]⟩ .f32) (p : Fin M) (q : Fin N) :
    matmul (DotDims.plain M K N) none (truncf .bf16 x0 h) (truncf .bf16 x1 h)
        (constant (F := Ideal) ⟨2, ![M, N]⟩ .f32 0x00000000#32) (ix2 p q)
      = ∑ k : Fin K, x0 (ix2 p k) * x1 (ix2 k q) :=
  (Cert.PlainDot.matmul_zero_plain_apply none (truncf .bf16 x0 h) (truncf .bf16 x1 h) p q).trans
    (Finset.sum_congr rfl fun _ _ => rfl)

/-- The host's product of the whole matrices: entry (p, q) is the sum over k of A (p, k) · B (k, q). -/
theorem dense_host_entry (A : FVec Ideal ⟨2, ![M, K]⟩ .f32) (B : FVec Ideal ⟨2, ![K, N]⟩ .f32) (p : Fin M) (q : Fin N) :
    Host.dotGeneral (F := Ideal) (DotDims.plain M K N) none A B (ix2 p q) = ∑ k : Fin K, A (ix2 p k) * B (ix2 k q) :=
  Cert.HostDot.dotGeneral_plain_apply none A B p q

variable {a b : ℕ}

/-- A one-row matrix [1, b] repeated down a rows (the kernel's broadcast of its bias row): entry (p, q) is the row's
    entry q. -/
theorem row_down_entry {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The same repetition as the host spells it (broadcast_in_dim of [1, b] to [a, b] along both axes). -/
theorem row_down_host_entry {α : Type} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector [b] laid as a one-row matrix [1, b], by a reshape (the kernel's program) or by a broadcast_in_dim
    along the last axis (the reference's): the same row. -/
theorem bias_row_eq {α : Type} (x : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ x h1 = broadcastInDim ⟨2, ![1, b]⟩ (![1] : Fin 1 → Fin 2) h2 x := by
  funext j
  obtain ⟨u, q, rfl⟩ : ∃ (u : Fin 1) (q : Fin b), j = ix2 u q := ⟨j 0, j 1, eq_ix2 j⟩
  rw [shapeCast_a_1a_apply]
  refine (broadcastInDim_apply _ h2 x (ix2 u q) (ix1 q) fun ax => ?_).symm
  match ax with
  | ⟨0, _⟩ =>
    show q.val = if b = 1 then 0 else q.val
    split
    · have := q.isLt; omega
    · rfl

/-- The kernel's bias step on a block, with the maximum against zero: entry (p, q) is max (x0 (p, q) + x1 (0, q)) 0. -/
theorem bias_relu_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ (Scalar.ofBits (F := Ideal) .f32 0x00000000#32)) (ix2 p q)
      = max (x0 (ix2 p q) + x1 (ix2 (0 : Fin 1) q)) (Ideal.ofBits .f32 0x00000000#32) := by
  rw [maximumf_apply, addf_apply, shapeCast_self, shapeCast_self, row_down_entry]
  rfl

/-- The kernel's bias step on a block, second layer (no maximum): entry (p, q) is x0 (p, q) + x1 (0, q). -/
theorem bias_block_entry (x0 : FVec Ideal ⟨2, ![a, b]⟩ .f32) (x1 : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x0 h0) (broadcastTo ⟨2, ![a, b]⟩ (shapeCast ⟨2, ![1, b]⟩ x1 h1) hb) (ix2 p q)
      = x0 (ix2 p q) + x1 (ix2 (0 : Fin 1) q) := by
  rw [addf_apply, shapeCast_self, shapeCast_self, row_down_entry]

/-- The reference's bias step with the maximum against the zero matrix: entry (p, q) is max (X (p, q) + R (0, q)) 0. -/
theorem bias_relu_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2))
    (hz : (⟨0, ![]⟩ : Shape).BroadcastsInDim ⟨2, ![a, b]⟩ (![] : Fin 0 → Fin 2)) (p : Fin a) (q : Fin b) :
    maximumf (addf X (broadcastInDim ⟨2, ![a, b]⟩ (![0, 1] : Fin 2 → Fin 2) hR R))
        (broadcastInDim ⟨2, ![a, b]⟩ (![] : Fin 0 → Fin 2) hz (constant (F := Ideal) ⟨0, ![]⟩ .f32 0x00000000#32)) (ix2 p q)
      = max (X (ix2 p q) + R (ix2 (0 : Fin 1) q)) (Ideal.ofBits .f32 0x00000000#32) := by
  rw [maximumf_apply, addf_apply, row_down_host_entry]
  rfl

/-- The reference's bias step, second layer: entry (p, q) is X (p, q) + R (0, q). -/
theorem bias_host_entry (X : FVec Ideal ⟨2, ![a, b]⟩ .f32) (R : FVec Ideal ⟨2, ![1, b]⟩ .f32)
    (hR : (⟨2, ![1, b]⟩ : Shape).BroadcastsInDim ⟨2, ![a, b]⟩ (![0, 1] : Fin 2 → Fin 2)) (p : Fin a) (q : Fin b) :
    addf X (broadcastInDim ⟨2, ![a, b]⟩ (![0, 1] : Fin 2 → Fin 2) hR R) (ix2 p q)
      = X (ix2 p q) + R (ix2 (0 : Fin 1) q) := by
  rw [addf_apply, row_down_host_entry]

end Cert.Lib.DenseBias

end
-- ==== Proof.LayerSpec.lean ====
/-
  The two array-level layer steps of the graph convolution, as functions of whole arrays of extended reals.

  rowsDot A B is the matrix product of a [100000, 128] by a [128, 128] matrix: entry (g, q) is the sum over k of
  A (g, k) · B (k, q); an entry reads one row of A and one column of B.  biasRelu X r adds the one-row matrix r [1, 128]
  to every row of X and takes the maximum with zero, entry by entry.
-/
import Idealize.ShloMosaic.PureOps.Ideal
import Idealize.ShloMosaic.Lib.ValueIdx

noncomputable section

namespace Cert.LayerSpec

open Idealize.ShloMosaic Idealize.ShloMosaic.ValueIdx

/-- The product of a [100000, 128] matrix by a [128, 128] matrix, entry by entry. -/
def rowsDot (A : (⟨2, ![100000, 128]⟩ : Shape).Idx → EReal) (B : (⟨2, ![128, 128]⟩ : Shape).Idx → EReal) :
    (⟨2, ![100000, 128]⟩ : Shape).Idx → EReal :=
  fun i => ∑ k : Fin 128, A (ix2 (⟨(i 0).val, (i 0).isLt⟩ : Fin 100000) k) * B (ix2 k (⟨(i 1).val, (i 1).isLt⟩ : Fin 128))

/-- Entry (g, q) of the product is the sum over k of A (g, k) · B (k, q). -/
theorem rowsDot_entry (A : (⟨2, ![100000, 128]⟩ : Shape).Idx → EReal) (B : (⟨2, ![128, 128]⟩ : Shape).Idx → EReal)
    (g : Fin 100000) (q : Fin 128) : rowsDot A B (ix2 g q) = ∑ k : Fin 128, A (ix2 g k) * B (ix2 k q) := rfl

/-- A row [1, 128] added to every row of a [100000, 128] matrix, then the maximum with zero, entry by entry. -/
def biasRelu (X : (⟨2, ![100000, 128]⟩ : Shape).Idx → EReal) (r : (⟨2, ![1, 128]⟩ : Shape).Idx → EReal) :
    (⟨2, ![100000, 128]⟩ : Shape).Idx → EReal :=
  fun i => max (X i + r (ix2 (0 : Fin 1) (⟨(i 1).val, (i 1).isLt⟩ : Fin 128))) (Ideal.ofBits .f32 0x00000000#32)

/-- Entry (g, q) is max (X (g, q) + r (0, q)) 0. -/
theorem biasRelu_entry (X : (⟨2, ![100000, 128]⟩ : Shape).Idx → EReal) (r : (⟨2, ![1, 128]⟩ : Shape).Idx → EReal)
    (g : Fin 100000) (q : Fin 128) :
    biasRelu X r (ix2 g q) = max (X (ix2 g q) + r (ix2 (0 : Fin 1) q)) (Ideal.ofBits .f32 0x00000000#32) := rfl

end Cert.LayerSpec

end
-- ==== Proof.MatmulRegions.lean ====
/-
  The two row-tiled matrix products of the graph convolution, read as whole arrays.

  Each of the two regions runs over a grid of 20 points.  Point t stages rows 5000·t … 5000·t + 4999 of the left matrix
  [100000, 128] (block index (t, 0), block [5000, 128]) and the whole right matrix [128, 128] (block index (0, 0)), and
  writes back rows 5000·t … 5000·t + 4999 of the output (block index (t, 0)).  The body multiplies its two blocks, both
  narrowed to bf16 first (the identity on the extended reals), into a zero accumulator, so entry (p, q) of what it
  leaves is the sum over k of (left block) (p, k) · (right matrix) (k, q).  An entry of a matrix product reads one row of
  the left factor, so block t of the rows of the product is the product of block t of the rows: what point t writes back
  is block t of the product of the whole arrays.  The 20 blocks tile the output (row r lies in block r / 5000), so after
  the region the output array is the product of the two arrays the region found, whatever those were.
-/
import proofs.«139044_j69286412419204_1_alg».proof.Proof.Gen.KernelIdeal.Frame
import proofs.«139044_j69286412419204_1_alg».proof.Proof.LibDenseBias
import proofs.«139044_j69286412419204_1_alg».proof.Proof.LayerSpec
import Idealize.ShloMosaic.Lib.Pipeline.Value
import Idealize.ShloMosaic.Lib.ValueIdx

noncomputable section

namespace Cert.KernelIdeal.MatmulRegions

open Cert.KernelIdeal Cert.KernelIdeal.Gen Idealize.ShloMosaic Idealize.ShloMosaic.TcCoe Idealize.SL.Sem
open Idealize.ShloMosaic.Pipeline (Dat)
open Idealize.ShloMosaic.ValueIdx
open Cert.LayerSpec (rowsDot)
open scoped BigOperators

/-- The zero offsets of a whole-block access, as the constant function. -/
theorem hz : (![0, 0] : Fin 2 → Nat) = fun _ => 0 := funext fun a => by fin_cases a <;> rfl

/-! ## Region 0 -/

/-- The body's result on its two blocks, entry (p, q): the sum over k of x0 (p, k) · x1 (k, q). -/
theorem pay0_entry (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.Lib.DenseBias.dense_block_entry (M := 5000) (K := 128) (N := 128) bitsLt_bf16_f32 x0 x1 p q

/-- The index maps over the grid: the left matrix's row block moves with the output's, the right matrix is one block,
    and the output's row-block index is at most 19. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every one of the 20 row blocks of the output is some point's. -/
theorem idx_onto0 : ∀ (q0 : Fin 20), ∃ t : Fin cfg0.N, win0_2.index t = ![q0.val, 0] :=
  (by decide +kernel : ∀ (q0 : Fin 20), ∃ t : Fin grid0.N, win0_2.index t = ![q0.val, 0])

/-- Point t computes, from block t of the rows of A and the whole of B, block t of the rows of the product of A and B:
    row p of the block is row index·5000 + p of the array, and column k of A's block and row k of B's are columns and
    rows k of the arrays. -/
theorem block0_eq (A : S100000x128.Idx → EReal) (B : S128x128.Idx → EReal) (t : Fin cfg0.N) :
    (cfg0.win 2).cut (grid0.coords t)
        (k0_pay1 (((cfg0.win 0).blk t).view.read (Elt Ideal) A) (((cfg0.win 1).blk t).view.read (Elt Ideal) B))
      = ((cfg0.win 2).blk t).view.read (Elt Ideal) (rowsDot A B) := by
  obtain ⟨e0, e1, e2, e3, e4, e5⟩ := idx_facts0 t
  funext j
  have hp : (j 0).val < 5000 := (j 0).isLt
  have hq : (j 1).val < 128 := (j 1).isLt
  have hx : (win0 2).xinj (grid0.coords t) j = ix2 (⟨(j 0).val, hp⟩ : Fin 5000) (⟨(j 1).val, hq⟩ : Fin 128) := by
    funext a; match a with | ⟨0, _⟩ => rfl | ⟨1, _⟩ => rfl
  show k0_pay1 (((cfg0.win 0).blk t).view.read (Elt Ideal) A) (((cfg0.win 1).blk t).view.read (Elt Ideal) B)
      ((win0 2).xinj (grid0.coords t) j) = _
  rw [hx]
  refine (pay0_entry _ _ _ _).trans ?_
  show ∑ k : Fin 128, A (((cfg0.win 0).blk t).view.emb (ix2 (⟨(j 0).val, hp⟩ : Fin 5000) k))
        * B (((cfg0.win 1).blk t).view.emb (ix2 k (⟨(j 1).val, hq⟩ : Fin 128)))
      = ∑ k : Fin 128,
          A (ix2 (⟨((((cfg0.win 2).blk t).view.emb j) 0).val, ((((cfg0.win 2).blk t).view.emb j) 0).isLt⟩ : Fin 100000) k)
        * B (ix2 k (⟨((((cfg0.win 2).blk t).view.emb j) 1).val, ((((cfg0.win 2).blk t).view.emb j) 1).isLt⟩ : Fin 128))
  refine Finset.sum_congr rfl fun k _ => ?_
  have h0 : ((cfg0.win 0).blk t).view.emb (ix2 (⟨(j 0).val, hp⟩ : Fin 5000) k)
      = ix2 (⟨((((cfg0.win 2).blk t).view.emb j) 0).val, ((((cfg0.win 2).blk t).view.emb j) 0).isLt⟩ : Fin 100000) k := by
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : ((cfg0.win 1).blk t).view.emb (ix2 k (⟨(j 1).val, hq⟩ : Fin 128))
      = ix2 k (⟨((((cfg0.win 2).blk t).view.emb j) 1).val, ((((cfg0.win 2).blk t).view.emb j) 1).isLt⟩ : Fin 128) := by
    funext a; apply Fin.ext
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [h0, h1]

/-- What point t writes back is block t of the product of the two arrays the region found. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (rowsDot (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  exact block0_eq (V c main_arg0) (V c main_arg3) t

/-- An index of the output array lies in point t's block iff each coordinate lies in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v17).slice (win0_2.rect t)).set ↔ _
  rw [View.set_slice_whole, Rect.mem_set_unit]
  exact Iff.rfl

/-- The blocks tile the output: row r lies in the block of the point whose row-block index is r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0 its output array is the product of the two arrays the region found. -/
theorem region0_array (V : (c : Dev nD) → (b : Ref sig .tc) → Buf (Elt Ideal) ((c : Thread nD τ).loc b)) (c : Dev nD)
    (A : S100000x128.Idx → EReal) (B : S128x128.Idx → EReal) (hA : V c main_arg0 = A) (hB : V c main_arg3 = B) :
    (dat0 (F := Ideal) V c).arrAt 2 cfg0.N = rowsDot A B := by
  subst hA hB
  exact (dat0 (F := Ideal) V c).arrAt_eq_of_cover 2 _ (fun t _ => flushed0_eq V c t) cover0

/-! ## Region 2 -/

/-- The body's result on its two blocks, entry (p, q): the sum over k of x0 (p, k) · x1 (k, q) (the reshape of x0 to its own
    shape changes nothing). -/
theorem pay2_entry (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  refine (Cert.Lib.DenseBias.dense_block_entry (M := 5000) (K := 128) (N := 128) bitsLt_bf16_f32
    (shapeCast S5000x128 x0 shapeCasts_S5000x128_S5000x128) x1 p q).trans ?_
  rw [shapeCast_self]

/-- The index maps over the grid: the left matrix's row block moves with the output's, the right matrix is one block,
    and the output's row-block index is at most 19. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Every one of the 20 row blocks of the output is some point's. -/
theorem idx_onto2 : ∀ (q0 : Fin 20), ∃ t : Fin cfg2.N, win2_2.index t = ![q0.val, 0] :=
  (by decide +kernel : ∀ (q0 : Fin 20), ∃ t : Fin grid2.N, win2_2.index t = ![q0.val, 0])

/-- Point t computes, from block t of the rows of A and the whole of B, block t of the rows of the product of A and B:
    row p of the block is row index·5000 + p of the array, and column k of A's block and row k of B's are columns and
    rows k of the arrays. -/
theorem block2_eq (A : S100000x128.Idx → EReal) (B : S128x128.Idx → EReal) (t : Fin cfg2.N) :
    (cfg2.win 2).cut (grid2.coords t)
        (k2_pay1 (((cfg2.win 0).blk t).view.read (Elt Ideal) A) (((cfg2.win 1).blk t).view.read (Elt Ideal) B))
      = ((cfg2.win 2).blk t).view.read (Elt Ideal) (rowsDot A B) := by
  obtain ⟨e0, e1, e2, e3, e4, e5⟩ := idx_facts2 t
  funext j
  have hp : (j 0).val < 5000 := (j 0).isLt
  have hq : (j 1).val < 128 := (j 1).isLt
  have hx : (win2 2).xinj (grid2.coords t) j = ix2 (⟨(j 0).val, hp⟩ : Fin 5000) (⟨(j 1).val, hq⟩ : Fin 128) := by
    funext a; match a with | ⟨0, _⟩ => rfl | ⟨1, _⟩ => rfl
  show k2_pay1 (((cfg2.win 0).blk t).view.read (Elt Ideal) A) (((cfg2.win 1).blk t).view.read (Elt Ideal) B)
      ((win2 2).xinj (grid2.coords t) j) = _
  rw [hx]
  refine (pay2_entry _ _ _ _).trans ?_
  show ∑ k : Fin 128, A (((cfg2.win 0).blk t).view.emb (ix2 (⟨(j 0).val, hp⟩ : Fin 5000) k))
        * B (((cfg2.win 1).blk t).view.emb (ix2 k (⟨(j 1).val, hq⟩ : Fin 128)))
      = ∑ k : Fin 128,
          A (ix2 (⟨((((cfg2.win 2).blk t).view.emb j) 0).val, ((((cfg2.win 2).blk t).view.emb j) 0).isLt⟩ : Fin 100000) k)
        * B (ix2 k (⟨((((cfg2.win 2).blk t).view.emb j) 1).val, ((((cfg2.win 2).blk t).view.emb j) 1).isLt⟩ : Fin 128))
  refine Finset.sum_congr rfl fun k _ => ?_
  have h0 : ((cfg2.win 0).blk t).view.emb (ix2 (⟨(j 0).val, hp⟩ : Fin 5000) k)
      = ix2 (⟨((((cfg2.win 2).blk t).view.emb j) 0).val, ((((cfg2.win 2).blk t).view.emb j) 0).isLt⟩ : Fin 100000) k := by
    funext a; apply Fin.ext
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  have h1 : ((cfg2.win 1).blk t).view.emb (ix2 k (⟨(j 1).val, hq⟩ : Fin 128))
      = ix2 k (⟨((((cfg2.win 2).blk t).view.emb j) 1).val, ((((cfg2.win 2).blk t).view.emb j) 1).isLt⟩ : Fin 128) := by
    funext a; apply Fin.ext
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega
  rw [h0, h1]

/-- What point t writes back is block t of the product of the two arrays the region found. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (rowsDot (V c main_v52) (V c main_arg5)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  exact block2_eq (V c main_v52) (V c main_arg5) t

/-- An index of the output array lies in point t's block iff each coordinate lies in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v53).slice (win2_2.rect t)).set ↔ _
  rw [View.set_slice_whole, Rect.mem_set_unit]
  exact Iff.rfl

/-- The blocks tile the output: row r lies in the block of the point whose row-block index is r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After region 2 its output array is the product of the two arrays the region found. -/
theorem region2_array (V : (c : Dev nD) → (b : Ref sig .tc) → Buf (Elt Ideal) ((c : Thread nD τ).loc b)) (c : Dev nD)
    (A : S100000x128.Idx → EReal) (B : S128x128.Idx → EReal) (hA : V c main_v52 = A) (hB : V c main_arg5 = B) :
    (dat2 (F := Ideal) V c).arrAt 2 cfg2.N = rowsDot A B := by
  subst hA hB
  exact (dat2 (F := Ideal) V c).arrAt_eq_of_cover 2 _ (fun t _ => flushed2_eq V c t) cover2

end Cert.KernelIdeal.MatmulRegions

end
-- ==== Proof.BiasReluRegions.lean ====
/-
  The two bias-and-rectify regions of the graph convolution, each read as one function of the arrays it finds.

  A region walks a grid of 20 points.  Point t stages rows 5000·t … 5000·t + 4999 of the [100000, 128] input X and the
  whole one-row matrix r [1, 128], and writes back rows 5000·t … 5000·t + 4999 of the output.  On its block the body adds
  r to every row and takes the maximum with zero: entry (p, q) of the block it leaves is max (x (p, q) + r (0, q)) 0.
  So what point t writes back is block t of biasRelu X r; the 20 blocks tile the 100000 rows (row g lies in block g / 5000),
  hence the output array after the region is biasRelu X r, and its entry (g, q) is max (X (g, q) + r (0, q)) 0.
-/
import proofs.«139044_j69286412419204_1_alg».proof.Proof.Gen.KernelIdeal.Frame
import proofs.«139044_j69286412419204_1_alg».proof.Proof.LibDenseBias
import proofs.«139044_j69286412419204_1_alg».proof.Proof.LayerSpec
import Idealize.ShloMosaic.Lib.Pipeline.Value
import Idealize.ShloMosaic.Lib.ValueIdx

noncomputable section

namespace Cert.KernelIdeal.BiasReluRegions

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when a region is entered, arbitrary
variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## Region 1: rows of main_v50 plus the row main_v51, rectified, into main_v52 -/

/-- Entry (p, q) of the body's result on a block: the block's entry plus the row's entry q, then the maximum with zero. -/
theorem pay1_entry (x0 : Vec Ideal S5000x128 .f32) (x1 : Vec Ideal S1x128 .f32) (p : Fin 5000) (q : Fin 128) :
    k1_pay1 x0 x1 (ix2 p q) = max (x0 (ix2 p q) + x1 (ix2 (0 : Fin 1) q)) (Ideal.ofBits .f32 0x00000000#32) :=
  Cert.Lib.DenseBias.bias_relu_block_entry (a := 5000) (b := 128) x0 x1 _ _ _ p q

/-- The same at any index j of the block: its column is j 1. -/
theorem pay1_apply (x0 : Vec Ideal S5000x128 .f32) (x1 : Vec Ideal S1x128 .f32) (j : S5000x128.Idx) :
    k1_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact pay1_entry x0 x1 p q

/-- The block indices over the 20 grid points: the input's row block is the output's, the row matrix stays at block
    (0, 0), every column block is 0, and the output's row block is at most 19. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 19
    ∧ win1_2.index t (1 : Fin 2) = 0 :=
  (by decide +kernel : ∀ t : Fin grid1.N, _)

/-- Each of the 20 row blocks of the output is some grid point's. -/
theorem idx_onto1 : ∀ (q0 : Fin 20), ∃ t : Fin cfg1.N, win1_2.index t = ![q0.val, 0] :=
  (by decide +kernel : ∀ (q0 : Fin 20), ∃ t : Fin grid1.N, win1_2.index t = ![q0.val, 0])

/-- What grid point t writes back is block t of biasRelu of the two arrays the region finds: entry j of the block sits at
    row (row block) · 5000 + j 0 and column j 1 of the array, the input block's entry j sits at the same place, and the row
    matrix's entry (0, j 1) is the array's own. -/
theorem flushed1_eq (c : Dev nD) (t : Fin cfg1.N) :
    (dat1 (F := Ideal) V c).flushed 2 t
      = ((cfg1.win 2).blk t).view.read (Elt Ideal) (Cert.LayerSpec.biasRelu (V c main_v50) (V c main_v51)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts1 t
  funext j
  refine (pay1_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1))
      = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have key : ∀ (X : S100000x128.Idx → EReal) (r : S1x128.Idx → EReal),
      max (X (((cfg1.win 0).blk t).view.emb j) + r (((cfg1.win 1).blk t).view.emb (ix2 (0 : Fin 1) (j 1))))
          (Ideal.ofBits .f32 0x00000000#32)
        = Cert.LayerSpec.biasRelu X r (((cfg1.win 2).blk t).view.emb j) := by
    intro X r
    unfold Cert.LayerSpec.biasRelu
    rw [h0, h1]
    rfl
  exact key (V c main_v50) (V c main_v51)

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v52).slice (win1_2.rect t)).set ↔ _
  rw [View.set_slice_whole, Rect.mem_set_unit]
  exact Iff.rfl

/-- The 20 blocks tile the output: row g lies in the block of row-block index g / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after region 1: biasRelu of the input array and the row matrix as the region finds them. -/
theorem region1_array (c : Dev nD) (X : S100000x128.Idx → EReal) (r : S1x128.Idx → EReal)
    (hX : V c main_v50 = X) (hr : V c main_v51 = r) :
    (dat1 (F := Ideal) V c).arrAt 2 cfg1.N = Cert.LayerSpec.biasRelu X r := by
  subst hX hr
  exact (dat1 V c).arrAt_eq_of_cover 2 _ (fun t _ => flushed1_eq V c t) cover1

/-- Entry (g, q) of it: max (X (g, q) + r (0, q)) 0. -/
theorem region1_entry (c : Dev nD) (X : S100000x128.Idx → EReal) (r : S1x128.Idx → EReal)
    (hX : V c main_v50 = X) (hr : V c main_v51 = r) (g : Fin 100000) (q : Fin 128) :
    (dat1 (F := Ideal) V c).arrAt 2 cfg1.N (ix2 g q)
      = max (X (ix2 g q) + r (ix2 (0 : Fin 1) q)) (Ideal.ofBits .f32 0x00000000#32) :=
  congrFun (region1_array V c X r hX hr) (ix2 g q)

/-! ## Region 3: rows of main_v86 plus the row main_v87, rectified, into main_v88 -/

/-- Entry (p, q) of the body's result on a block: the block's entry plus the row's entry q, then the maximum with zero. -/
theorem pay3_entry (x0 : Vec Ideal S5000x128 .f32) (x1 : Vec Ideal S1x128 .f32) (p : Fin 5000) (q : Fin 128) :
    k3_pay1 x0 x1 (ix2 p q) = max (x0 (ix2 p q) + x1 (ix2 (0 : Fin 1) q)) (Ideal.ofBits .f32 0x00000000#32) :=
  Cert.Lib.DenseBias.bias_relu_block_entry (a := 5000) (b := 128) x0 x1 _ _ _ p q

/-- The same at any index j of the block: its column is j 1. -/
theorem pay3_apply (x0 : Vec Ideal S5000x128 .f32) (x1 : Vec Ideal S1x128 .f32) (j : S5000x128.Idx) :
    k3_pay1 x0 x1 j = max (x0 j + x1 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact pay3_entry x0 x1 p q

/-- The block indices over the 20 grid points: the input's row block is the output's, the row matrix stays at block
    (0, 0), every column block is 0, and the output's row block is at most 19. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 19
    ∧ win3_2.index t (1 : Fin 2) = 0 :=
  (by decide +kernel : ∀ t : Fin grid3.N, _)

/-- Each of the 20 row blocks of the output is some grid point's. -/
theorem idx_onto3 : ∀ (q0 : Fin 20), ∃ t : Fin cfg3.N, win3_2.index t = ![q0.val, 0] :=
  (by decide +kernel : ∀ (q0 : Fin 20), ∃ t : Fin grid3.N, win3_2.index t = ![q0.val, 0])

/-- What grid point t writes back is block t of biasRelu of the two arrays the region finds: entry j of the block sits at
    row (row block) · 5000 + j 0 and column j 1 of the array, the input block's entry j sits at the same place, and the row
    matrix's entry (0, j 1) is the array's own. -/
theorem flushed3_eq (c : Dev nD) (t : Fin cfg3.N) :
    (dat3 (F := Ideal) V c).flushed 2 t
      = ((cfg3.win 2).blk t).view.read (Elt Ideal) (Cert.LayerSpec.biasRelu (V c main_v86) (V c main_v87)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts3 t
  funext j
  refine (pay3_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1))
      = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have key : ∀ (X : S100000x128.Idx → EReal) (r : S1x128.Idx → EReal),
      max (X (((cfg3.win 0).blk t).view.emb j) + r (((cfg3.win 1).blk t).view.emb (ix2 (0 : Fin 1) (j 1))))
          (Ideal.ofBits .f32 0x00000000#32)
        = Cert.LayerSpec.biasRelu X r (((cfg3.win 2).blk t).view.emb j) := by
    intro X r
    unfold Cert.LayerSpec.biasRelu
    rw [h0, h1]
    rfl
  exact key (V c main_v86) (V c main_v87)

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v88).slice (win3_2.rect t)).set ↔ _
  rw [View.set_slice_whole, Rect.mem_set_unit]
  exact Iff.rfl

/-- The 20 blocks tile the output: row g lies in the block of row-block index g / 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after region 3: biasRelu of the input array and the row matrix as the region finds them. -/
theorem region3_array (c : Dev nD) (X : S100000x128.Idx → EReal) (r : S1x128.Idx → EReal)
    (hX : V c main_v86 = X) (hr : V c main_v87 = r) :
    (dat3 (F := Ideal) V c).arrAt 2 cfg3.N = Cert.LayerSpec.biasRelu X r := by
  subst hX hr
  exact (dat3 V c).arrAt_eq_of_cover 2 _ (fun t _ => flushed3_eq V c t) cover3

/-- Entry (g, q) of it: max (X (g, q) + r (0, q)) 0. -/
theorem region3_entry (c : Dev nD) (X : S100000x128.Idx → EReal) (r : S1x128.Idx → EReal)
    (hX : V c main_v86 = X) (hr : V c main_v87 = r) (g : Fin 100000) (q : Fin 128) :
    (dat3 (F := Ideal) V c).arrAt 2 cfg3.N (ix2 g q)
      = max (X (ix2 g q) + r (ix2 (0 : Fin 1) q)) (Ideal.ofBits .f32 0x00000000#32) :=
  congrFun (region3_array V c X r hX hr) (ix2 g q)

end Cert.KernelIdeal.BiasReluRegions

end
-- ==== Proof.HeadSpec.lean ====
/-
  The classifier head of the network as one function on extended reals, entry by entry.

  From a pooled feature matrix P [1024, 128], a first layer W1 [128, 128] with bias row r1 [1, 128] and a second layer
  W2 [128, 2] with bias row r2 [1, 2]:

    hidden g k   = max ((∑ k', P (g, k') · W1 (k', k)) + r1 (0, k)) 0
    logit  g j   = (∑ k, hidden g k · W2 (k, j)) + r2 (0, j)
    rowMax g     = max (−∞) (the fold of max from −∞ over the two logits of row g)
    headSpec g q = (logit g q − rowMax g) − log (∑ j, exp (logit g j − rowMax g))

  the log-softmax of the two logits of row g, taken stably by subtracting the row's maximum first. The constants 0 and −∞
  are the values of the f32 words 0x00000000 and 0xFF800000; exp, log and the subtraction are the extended reals'
  operations of the ideal float instance.
-/
import Idealize.ShloMosaic.PureOps.Ideal
import Idealize.ShloMosaic.Lib.ValueIdx

noncomputable section

namespace Cert.HeadSpec

open Idealize.ShloMosaic Idealize.ShloMosaic.ValueIdx

/-- The hidden layer: entry (g, k) is the first dense layer of row g of P, with its bias, cut below at zero. -/
def hidden (P : (⟨2, ![1024, 128]⟩ : Shape).Idx → EReal) (W1 : (⟨2, ![128, 128]⟩ : Shape).Idx → EReal)
    (r1 : (⟨2, ![1, 128]⟩ : Shape).Idx → EReal) (g : Fin 1024) (k : Fin 128) : EReal :=
  max ((∑ k' : Fin 128, P (ix2 g k') * W1 (ix2 k' k)) + r1 (ix2 (0 : Fin 1) k)) (Ideal.ofBits .f32 0x00000000#32)

/-- The two logits of row g: the second dense layer of the hidden row, with its bias. -/
def logit (P : (⟨2, ![1024, 128]⟩ : Shape).Idx → EReal) (W1 : (⟨2, ![128, 128]⟩ : Shape).Idx → EReal)
    (r1 : (⟨2, ![1, 128]⟩ : Shape).Idx → EReal) (W2 : (⟨2, ![128, 2]⟩ : Shape).Idx → EReal)
    (r2 : (⟨2, ![1, 2]⟩ : Shape).Idx → EReal) (g : Fin 1024) (j : Fin 2) : EReal :=
  (∑ k : Fin 128, hidden P W1 r1 g k * W2 (ix2 k j)) + r2 (ix2 (0 : Fin 1) j)

/-- The maximum of row g's logits, as both programs take it: a fold of max from −∞, then one more max against −∞. -/
def rowMax (P : (⟨2, ![1024, 128]⟩ : Shape).Idx → EReal) (W1 : (⟨2, ![128, 128]⟩ : Shape).Idx → EReal)
    (r1 : (⟨2, ![1, 128]⟩ : Shape).Idx → EReal) (W2 : (⟨2, ![128, 2]⟩ : Shape).Idx → EReal)
    (r2 : (⟨2, ![1, 2]⟩ : Shape).Idx → EReal) (g : Fin 1024) : EReal :=
  max (Ideal.ofBits .f32 0xFF800000#32)
    ((Finset.univ : Finset (Fin 2)).fold max (Ideal.ofBits .f32 0xFF800000#32) (fun j => logit P W1 r1 W2 r2 g j))

/-- The head's output at (g, q): the log-softmax of row g's logits at q. -/
def headSpec (P : (⟨2, ![1024, 128]⟩ : Shape).Idx → EReal) (W1 : (⟨2, ![128, 128]⟩ : Shape).Idx → EReal)
    (r1 : (⟨2, ![1, 128]⟩ : Shape).Idx → EReal) (W2 : (⟨2, ![128, 2]⟩ : Shape).Idx → EReal)
    (r2 : (⟨2, ![1, 2]⟩ : Shape).Idx → EReal) (g : Fin 1024) (q : Fin 2) : EReal :=
  (logit P W1 r1 W2 r2 g q - rowMax P W1 r1 W2 r2 g)
    - Ideal.log (∑ j : Fin 2, Ideal.exp (logit P W1 r1 W2 r2 g j - rowMax P W1 r1 W2 r2 g))

end Cert.HeadSpec

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«139044_j69286412419204_1_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«139044_j69286412419204_1_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.HeadKernel.lean ====
/-
  The classifier head as the kernel computes it: the fifth region's output array is the head function of the five arrays
  the region reads.

  The body works on one block per window, and the grid has one point, at which every window's block is its whole array
  (block index (0, 0), block extents the array's). The body's arithmetic at an entry (g, q) of its [1024, 2] block:

    hidden block     max (x0 · x1 + row x2 repeated down the rows) 0, the product of the operands narrowed to bf16 (the
                     identity on extended reals) into a zero accumulator: entry (g, k) is
                     max ((∑ k', x0 (g, k') · x1 (k', k)) + x2 (0, k)) 0;
    logits           hidden · x3 + row x4 repeated down the rows: entry (g, j) is (∑ k, hidden (g, k) · x3 (k, j)) + x4 (0, j);
    row maximum      the maximum over the two columns from −∞, then the maximum with −∞ again;
    shifted logits   logits less the row maximum stood up as a column and repeated across the two columns;
    result           shifted logits less the logarithm of the row sum of their exponentials, the sum over the two columns
                     from a zero accumulator, stood up as a column and repeated across.

  Each step read at an index is the corresponding line of the specification (hidden, logit, rowMax, headSpec). Then the
  one block is the array: what the one grid point writes back is its block of the function G4 (every input block is its
  array, since index · extent + 1 · coordinate is the coordinate when the index is 0), and that block covers every index
  of the output array.
-/
import proofs.«139044_j69286412419204_1_alg».proof.Proof.Gen.KernelIdeal.Frame
import proofs.«139044_j69286412419204_1_alg».proof.Proof.HeadSpec
import proofs.«139044_j69286412419204_1_alg».proof.Proof.LibDenseBias
import proofs.«139044_j69286412419204_1_alg».proof.Proof.LibRowMax
import proofs.«139044_j69286412419204_1_alg».proof.Proof.LibRowSum
import proofs.«139044_j69286412419204_1_alg».proof.Proof.LibHostDot

noncomputable section

namespace Cert.KernelIdeal.HeadKernel

open Cert.KernelIdeal Cert.KernelIdeal.Gen
open Idealize.ShloMosaic Idealize.ShloMosaic.TcCoe Idealize.SL.Sem Idealize.ShloMosaic.ValueIdx
open Idealize.ShloMosaic.Pipeline (Dat)
open Cert.HeadSpec

/-- The hidden layer as the body spells it on its whole blocks. -/
def hidV (x0 : Vec Ideal S1024x128 .f32) (x1 : Vec Ideal S128x128 .f32) (x2 : Vec Ideal S1x128 .f32) : FVec Ideal S1024x128 .f32 :=
  maximumf
    (addf
      (matmul dot_S1024x128_S128x128_S1024x128_1_0_0_1_n_n none
        (truncf .bf16 (shapeCast S1024x128 x0 shapeCasts_S1024x128_S1024x128) bitsLt_bf16_f32)
        (truncf .bf16 x1 bitsLt_bf16_f32) (constant S1024x128 .f32 0x00000000#32))
      (broadcastTo S1024x128 (shapeCast S1x128 x2 shapeCasts_S1x128_S1x128) broadcasts_S1x128_S1024x128))
    (broadcast S1024x128 (Scalar.ofBits (F := Ideal) .f32 0x00000000#32))

/-- Entry (g, k) of the hidden block is the specification's hidden layer. -/
theorem hidV_apply (x0 : Vec Ideal S1024x128 .f32) (x1 : Vec Ideal S128x128 .f32) (x2 : Vec Ideal S1x128 .f32)
    (g : Fin 1024) (k : Fin 128) : hidV x0 x1 x2 (ix2 g k) = hidden x0 x1 x2 g k := by
  unfold hidV Cert.HeadSpec.hidden
  rw [maximumf_apply, addf_apply, shapeCast_self, shapeCast_self, Cert.Lib.DenseBias.row_down_entry]
  have hd : dot_S1024x128_S128x128_S1024x128_1_0_0_1_n_n = DotDims.plain 1024 128 128 := rfl
  rw [hd, Cert.Lib.DenseBias.dense_block_entry]
  rfl

/-- The two logits as the body spells them. -/
def logitV (x0 : Vec Ideal S1024x128 .f32) (x1 : Vec Ideal S128x128 .f32) (x2 : Vec Ideal S1x128 .f32)
    (x3 : Vec Ideal S128x2 .f32) (x4 : Vec Ideal S1x2 .f32) : FVec Ideal S1024x2 .f32 :=
  addf
    (matmul dot_S1024x128_S128x2_S1024x2_1_0_0_1_n_n none
      (truncf .bf16 (hidV x0 x1 x2) bitsLt_bf16_f32) (truncf .bf16 x3 bitsLt_bf16_f32)
      (constant S1024x2 .f32 0x00000000#32))
    (broadcastTo S1024x2 (shapeCast S1x2 x4 shapeCasts_S1x2_S1x2) broadcasts_S1x2_S1024x2)

/-- Entry (g, j) of the logits block is the specification's logit. -/
theorem logitV_apply (x0 : Vec Ideal S1024x128 .f32) (x1 : Vec Ideal S128x128 .f32) (x2 : Vec Ideal S1x128 .f32)
    (x3 : Vec Ideal S128x2 .f32) (x4 : Vec Ideal S1x2 .f32) (g : Fin 1024) (j : Fin 2) :
    logitV x0 x1 x2 x3 x4 (ix2 g j) = logit x0 x1 x2 x3 x4 g j := by
  unfold logitV logit
  rw [addf_apply, shapeCast_self, Cert.Lib.DenseBias.row_down_entry]
  have hd : dot_S1024x128_S128x2_S1024x2_1_0_0_1_n_n = DotDims.plain 1024 128 2 := rfl
  rw [hd, Cert.Lib.DenseBias.dense_block_entry]
  simp only [hidV_apply]

/-- The row maximum as the body spells it. -/
def maxV (x0 : Vec Ideal S1024x128 .f32) (x1 : Vec Ideal S128x128 .f32) (x2 : Vec Ideal S1x128 .f32)
    (x3 : Vec Ideal S128x2 .f32) (x4 : Vec Ideal S1x2 .f32) : FVec Ideal S1024 .f32 :=
  maximumf (broadcast S1024 (Scalar.ofBits (F := Ideal) .f32 0xFF800000#32))
    (multiReduction .maximumf [1] S1024 (logitV x0 x1 x2 x3 x4) 0xFF800000#32 reduces_S1024x2_S1024 (.inl rfl) rfl)

/-- Entry g of the row maxima is the specification's row maximum. -/
theorem maxV_apply (x0 : Vec Ideal S1024x128 .f32) (x1 : Vec Ideal S128x128 .f32) (x2 : Vec Ideal S1x128 .f32)
    (x3 : Vec Ideal S128x2 .f32) (x4 : Vec Ideal S1x2 .f32) (g : Fin 1024) :
    maxV x0 x1 x2 x3 x4 (ix1 g) = rowMax x0 x1 x2 x3 x4 g := by
  unfold maxV rowMax
  rw [maximumf_apply]
  refine congrArg (max (Ideal.ofBits .f32 0xFF800000#32)) ?_
  refine (Cert.Lib.RowMax.reduce_cols_max (logitV x0 x1 x2 x3 x4) reduces_S1024x2_S1024 (.inl rfl) rfl g).trans ?_
  simp only [logitV_apply]

/-- The logits less their row maximum. -/
def shiftV (x0 : Vec Ideal S1024x128 .f32) (x1 : Vec Ideal S128x128 .f32) (x2 : Vec Ideal S1x128 .f32)
    (x3 : Vec Ideal S128x2 .f32) (x4 : Vec Ideal S1x2 .f32) : FVec Ideal S1024x2 .f32 :=
  subf (logitV x0 x1 x2 x3 x4)
    (broadcastTo S1024x2 (shapeCast S1024x1 (maxV x0 x1 x2 x3 x4) shapeCasts_S1024_S1024x1) broadcasts_S1024x1_S1024x2)

/-- Entry (g, j) of the shifted logits. -/
theorem shiftV_apply (x0 : Vec Ideal S1024x128 .f32) (x1 : Vec Ideal S128x128 .f32) (x2 : Vec Ideal S1x128 .f32)
    (x3 : Vec Ideal S128x2 .f32) (x4 : Vec Ideal S1x2 .f32) (g : Fin 1024) (j : Fin 2) :
    shiftV x0 x1 x2 x3 x4 (ix2 g j) = logit x0 x1 x2 x3 x4 g j - rowMax x0 x1 x2 x3 x4 g := by
  unfold shiftV
  rw [subf_apply, Cert.HostDot.broadcastTo_a1_ab_apply, Cert.LibLayout.shapeCast_a_a1_apply, logitV_apply, maxV_apply]

/-- The body's stored value is the shifted logits less the logarithm of the row sums of their exponentials. -/
theorem pay_eq (x0 : Vec Ideal S1024x128 .f32) (x1 : Vec Ideal S128x128 .f32) (x2 : Vec Ideal S1x128 .f32)
    (x3 : Vec Ideal S128x2 .f32) (x4 : Vec Ideal S1x2 .f32) :
    k4_pay1 (F := Ideal) x0 x1 x2 x3 x4
      = subf (shiftV x0 x1 x2 x3 x4)
          (broadcastTo S1024x2
            (log (shapeCast S1024x1
              (multiReduction .add [1] S1024 (exp (shiftV x0 x1 x2 x3 x4)) 0x00000000#32 reduces_S1024x2_S1024 (.inl rfl) rfl)
              shapeCasts_S1024_S1024x1))
            broadcasts_S1024x1_S1024x2) := rfl

/-- The body's stored value at (g, q) is the head of its five blocks at (g, q). -/
theorem pay_entry (x0 : Vec Ideal S1024x128 .f32) (x1 : Vec Ideal S128x128 .f32) (x2 : Vec Ideal S1x128 .f32)
    (x3 : Vec Ideal S128x2 .f32) (x4 : Vec Ideal S1x2 .f32) (g : Fin 1024) (q : Fin 2) :
    k4_pay1 (F := Ideal) x0 x1 x2 x3 x4 (ix2 g q) = headSpec x0 x1 x2 x3 x4 g q := by
  rw [pay_eq]
  unfold headSpec
  rw [subf_apply, Cert.HostDot.broadcastTo_a1_ab_apply, shiftV_apply]
  show _ - Ideal.log (shapeCast S1024x1
      (multiReduction .add [1] S1024 (exp (shiftV x0 x1 x2 x3 x4)) 0x00000000#32 reduces_S1024x2_S1024 (.inl rfl) rfl)
      shapeCasts_S1024_S1024x1 (ix2 g (0 : Fin 1))) = _
  refine congrArg (fun s : EReal => logit x0 x1 x2 x3 x4 g q - rowMax x0 x1 x2 x3 x4 g - Ideal.log s) ?_
  refine (Cert.Lib.RowSum.rowsum_column (exp (shiftV x0 x1 x2 x3 x4)) reduces_S1024x2_S1024 (.inl rfl) rfl
    shapeCasts_S1024_S1024x1 g (0 : Fin 1)).trans ?_
  refine Finset.sum_congr rfl fun j _ => ?_
  show Ideal.exp (shiftV x0 x1 x2 x3 x4 (ix2 g j)) = _
  rw [shiftV_apply]

/-- The payload at any index of its block. -/
theorem pay_idx (x0 : Vec Ideal S1024x128 .f32) (x1 : Vec Ideal S128x128 .f32) (x2 : Vec Ideal S1x128 .f32)
    (x3 : Vec Ideal S128x2 .f32) (x4 : Vec Ideal S1x2 .f32) (j : S1024x2.Idx) :
    k4_pay1 (F := Ideal) x0 x1 x2 x3 x4 j = headSpec x0 x1 x2 x3 x4 (j 0) (j 1) :=
  (congrArg (k4_pay1 (F := Ideal) x0 x1 x2 x3 x4) (eq_ix2 j)).trans (pay_entry x0 x1 x2 x3 x4 (j 0) (j 1))

/-! ## From the one block to the array -/

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The head's output array as one function of the five arrays the region reads. -/
def G4 (c : Dev nD) : S1024x2.Idx → EReal := fun i =>
  headSpec (V c main_v100) (V c main_arg7) (V c main_v101) (V c main_arg9) (V c main_v102) (i 0) (i 1)

/-- Every window's block index is (0, 0) at the grid's one point. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- What the grid's point writes back is its block of G4: each input block is its whole array, and the block's
    coordinates are the array's. -/
theorem flushed5_eq (c : Dev nD) (t : Fin cfg4.N) :
    (dat4 (F := Ideal) V c).flushed 5 t = ((cfg4.win 5).blk t).view.read (Elt Ideal) (G4 V c) := by
  show (cfg4.win 5).cut (grid4.coords t) ((dat4 (F := Ideal) V c).after 5 t) = _
  rw [after4_5]
  unfold out4_5
  rw [View.canon_unit_zero hz]
  simp only [View.ld_unit_zero (S := S1024x128) hz, View.ld_unit_zero (S := S128x128) hz,
    View.ld_unit_zero (S := S1x128) hz, View.ld_unit_zero (S := S128x2) hz, View.ld_unit_zero (S := S1x2) hz]
  obtain ⟨a0, a1, b0, b1, c0, c1, d0, d1, e0, e1, f0, f1⟩ := idx_facts4 t
  funext j
  show k4_pay1 (F := Ideal) (iblk4 V c 0 t) (iblk4 V c 1 t) (iblk4 V c 2 t) (iblk4 V c 3 t) (iblk4 V c 4 t) j
    = G4 V c (((cfg4.win 5).blk t).view.emb j)
  refine (pay_idx _ _ _ _ _ j).trans ?_
  have h0 : (iblk4 V c 0 t : S1024x128.Idx → EReal) = V c main_v100 := by
    funext i
    show V c main_v100 (((cfg4.win 0).blk t).view.emb i) = V c main_v100 i
    refine congrArg (V c main_v100) (funext fun a => Fin.ext ?_)
    match a with
    | ⟨0, _⟩ => show win4_0.index t (0 : Fin 2) * 1024 + 1 * (i 0).val = (i 0).val; omega
    | ⟨1, _⟩ => show win4_0.index t (1 : Fin 2) * 128 + 1 * (i 1).val = (i 1).val; omega
  have h1 : (iblk4 V c 1 t : S128x128.Idx → EReal) = V c main_arg7 := by
    funext i
    show V c main_arg7 (((cfg4.win 1).blk t).view.emb i) = V c main_arg7 i
    refine congrArg (V c main_arg7) (funext fun a => Fin.ext ?_)
    match a with
    | ⟨0, _⟩ => show win4_1.index t (0 : Fin 2) * 128 + 1 * (i 0).val = (i 0).val; omega
    | ⟨1, _⟩ => show win4_1.index t (1 : Fin 2) * 128 + 1 * (i 1).val = (i 1).val; omega
  have h2 : (iblk4 V c 2 t : S1x128.Idx → EReal) = V c main_v101 := by
    funext i
    show V c main_v101 (((cfg4.win 2).blk t).view.emb i) = V c main_v101 i
    refine congrArg (V c main_v101) (funext fun a => Fin.ext ?_)
    match a with
    | ⟨0, _⟩ => show win4_2.index t (0 : Fin 2) * 1 + 1 * (i 0).val = (i 0).val; omega
    | ⟨1, _⟩ => show win4_2.index t (1 : Fin 2) * 128 + 1 * (i 1).val = (i 1).val; omega
  have h3 : (iblk4 V c 3 t : S128x2.Idx → EReal) = V c main_arg9 := by
    funext i
    show V c main_arg9 (((cfg4.win 3).blk t).view.emb i) = V c main_arg9 i
    refine congrArg (V c main_arg9) (funext fun a => Fin.ext ?_)
    match a with
    | ⟨0, _⟩ => show win4_3.index t (0 : Fin 2) * 128 + 1 * (i 0).val = (i 0).val; omega
    | ⟨1, _⟩ => show win4_3.index t (1 : Fin 2) * 2 + 1 * (i 1).val = (i 1).val; omega
  have h4 : (iblk4 V c 4 t : S1x2.Idx → EReal) = V c main_v102 := by
    funext i
    show V c main_v102 (((cfg4.win 4).blk t).view.emb i) = V c main_v102 i
    refine congrArg (V c main_v102) (funext fun a => Fin.ext ?_)
    match a with
    | ⟨0, _⟩ => show win4_4.index t (0 : Fin 2) * 1 + 1 * (i 0).val = (i 0).val; omega
    | ⟨1, _⟩ => show win4_4.index t (1 : Fin 2) * 2 + 1 * (i 1).val = (i 1).val; omega
  have hj : (((cfg4.win 5).blk t).view.emb j : S1024x2.Idx) = j := by
    funext a; apply Fin.ext
    match a with
    | ⟨0, _⟩ => show win4_5.index t (0 : Fin 2) * 1024 + 1 * (j 0).val = (j 0).val; omega
    | ⟨1, _⟩ => show win4_5.index t (1 : Fin 2) * 2 + 1 * (j 1).val = (j 1).val; omega
  show headSpec (iblk4 V c 0 t) (iblk4 V c 1 t) (iblk4 V c 2 t) (iblk4 V c 3 t) (iblk4 V c 4 t) (j 0) (j 1)
    = headSpec (V c main_v100) (V c main_arg7) (V c main_v101) (V c main_arg9) (V c main_v102)
        ((((cfg4.win 5).blk t).view.emb j) 0) ((((cfg4.win 5).blk t).view.emb j) 1)
  rw [h0, h1, h2, h3, h4, hj]

/-- An index of the output array is in the one block iff each coordinate is in the block's range. -/
theorem mem_blk5 (t : Fin cfg4.N) (i : S1024x2.Idx) :
    i ∈ ((cfg4.win 5).blk t).view.set ↔ ∀ a : Fin 2, win4_5.index t a * S1024x2.size a ≤ (i a).val
      ∧ (i a).val < win4_5.index t a * S1024x2.size a + S1024x2.size a := by
  show i ∈ ((View.whole main_v103).slice (win4_5.rect t)).set ↔ _
  rw [View.set_slice_whole, Rect.mem_set_unit]
  exact Iff.rfl

/-- The one block is the whole output array. -/
theorem cover5 (i : S1024x2.Idx) :
    ∃ t : Fin cfg4.N, (cfg4.win 5).flush t = true ∧ i ∈ ((cfg4.win 5).blk t).view.set := by
  refine ⟨t4_0, flush4_5 t4_0, ?_⟩
  rw [mem_blk5]
  obtain ⟨a0, a1, b0, b1, c0, c1, d0, d1, e0, e1, f0, f1⟩ := idx_facts4 t4_0
  have hi0 : (i 0).val < 1024 := (i 0).isLt
  have hi1 : (i 1).val < 2 := (i 1).isLt
  intro a
  match a with
  | ⟨0, _⟩ =>
    show win4_5.index t4_0 (0 : Fin 2) * 1024 ≤ (i 0).val ∧ (i 0).val < win4_5.index t4_0 (0 : Fin 2) * 1024 + 1024
    omega
  | ⟨1, _⟩ =>
    show win4_5.index t4_0 (1 : Fin 2) * 2 ≤ (i 1).val ∧ (i 1).val < win4_5.index t4_0 (1 : Fin 2) * 2 + 2
    omega

/-- The output array after the region is the head of the five arrays it read. -/
theorem region4_G (c : Dev nD) : (dat4 (F := Ideal) V c).arrAt 5 cfg4.N = G4 V c :=
  (dat4 (F := Ideal) V c).arrAt_eq_of_cover 5 (G4 V c) (fun t _ => flushed5_eq V c t) cover5

/-- The same, with the five arrays named: the output array is the head function of them, index by index. -/
theorem region4_array (c : Dev nD) (P : S1024x128.Idx → EReal) (W1 : S128x128.Idx → EReal) (r1 : S1x128.Idx → EReal)
    (W2 : S128x2.Idx → EReal) (r2 : S1x2.Idx → EReal) (hP : V c main_v100 = P) (h1 : V c main_arg7 = W1)
    (hr1 : V c main_v101 = r1) (h2 : V c main_arg9 = W2) (hr2 : V c main_v102 = r2) :
    (dat4 (F := Ideal) V c).arrAt 5 cfg4.N
      = fun i => headSpec P W1 r1 W2 r2 (⟨(i 0).val, (i 0).isLt⟩ : Fin 1024) (⟨(i 1).val, (i 1).isLt⟩ : Fin 2) := by
  subst hP h1 hr1 h2 hr2
  exact region4_G V c

end Cert.KernelIdeal.HeadKernel

end
-- ==== Proof.HeadReference.lean ====
/-
  The classifier head as the reference computes it: the reference's result array is the head function of the pooled
  features, the two weight matrices and the two bias rows.

  The reference's operations after the pooling, read at an index:

    first dense layer     the product of the pooled matrix by W1 (entry (g, k): the sum over k' of P (g, k') · W1 (k', k)), plus
                          the bias laid as a row [1, 128] and repeated down the rows, then the maximum with the zero matrix;
    second dense layer    the product of that by W2, plus the bias row [1, 2] repeated down the rows: the logits;
    log-softmax           the maximum of each row of logits (a reduce with a maximum body from −∞: the fold of max over the
                          row's two entries), the maximum of that with −∞, laid as a column and repeated across; the
                          logits less it; the exponentials; their row sums (the initial value 0 plus the sum over the
                          row's two entries), laid as a column; the logarithm; repeated across; the difference.

  Each line is the corresponding line of the specification (hidden, logit, rowMax, headSpec); the reference's index
  functions at (g, ·) are the coordinates the specification names; the initial value 0 of the row sum adds nothing.
-/
import proofs.«139044_j69286412419204_1_alg».proof.Proof.Gen.ReferenceIdeal.Read
import proofs.«139044_j69286412419204_1_alg».proof.Proof.HeadSpec
import Idealize.ShloMosaic.PureOps.Reduce

noncomputable section

namespace Cert.ReferenceIdeal.HeadReference

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.HeadSpec

variable (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal))

/-- The first dense layer with its bias and the maximum with zero, at (g, k). -/
theorem hid_ref (g : Fin 1024) (k : Fin 128) :
    val_main_v109 (F := Ideal) x0 x1 x2 x3 x4 x5 x6 x7 x8 (ix2 g k)
      = hidden (val_main_v104 (F := Ideal) x0 x1 x2 x3 x4 x5 x6) x7 (val_main_v106 (F := Ideal) x8) g k := by
  rw [val_main_v109_apply, val_main_v108_apply, val_main_v105_apply, val_main_v107_apply, val_main_call2_v0_apply,
    val_main_call2_cst_apply]
  have e1 : ∀ k' : Fin 128, lidx_main_v105 (ix2 g k) k' = ix2 g k' := fun k' =>
    funext fun a => Fin.ext (by match a with | ⟨0, _⟩ => rfl | ⟨1, _⟩ => rfl)
  have e2 : ∀ k' : Fin 128, ridx_main_v105 (ix2 g k) k' = ix2 k' k := fun k' =>
    funext fun a => Fin.ext (by match a with | ⟨0, _⟩ => rfl | ⟨1, _⟩ => rfl)
  have e3 : idx_main_v107 (ix2 g k) = ix2 (0 : Fin 1) k :=
    funext fun a => Fin.ext (by match a with | ⟨0, _⟩ => rfl | ⟨1, _⟩ => rfl)
  simp only [e1, e2, e3]
  rfl

/-- The second dense layer with its bias, at (g, j): the logits. -/
theorem logit_ref (g : Fin 1024) (j : Fin 2) :
    val_main_v113 (F := Ideal) x0 x1 x2 x3 x4 x5 x6 x7 x8 x9 x10 (ix2 g j) = logit (val_main_v104 (F := Ideal) x0 x1 x2 x3 x4 x5 x6) x7 (val_main_v106 (F := Ideal) x8) x9 (val_main_v111 (F := Ideal) x10) g j := by
  rw [val_main_v113_apply, val_main_v110_apply, val_main_v112_apply]
  have e1 : ∀ k : Fin 128, lidx_main_v110 (ix2 g j) k = ix2 g k := fun k => funext fun a => Fin.ext (by match a with | ⟨0, _⟩ => rfl | ⟨1, _⟩ => rfl)
  have e2 : ∀ k : Fin 128, ridx_main_v110 (ix2 g j) k = ix2 k j := fun k => funext fun a => Fin.ext (by match a with | ⟨0, _⟩ => rfl | ⟨1, _⟩ => rfl)
  have e3 : idx_main_v112 (ix2 g j) = ix2 (0 : Fin 1) j := funext fun a => Fin.ext (by match a with | ⟨0, _⟩ => rfl | ⟨1, _⟩ => rfl)
  simp only [e1, e2, e3, hid_ref]
  rfl

/-- The row maximum: the reduce from −∞ is the fold of max over the row, then the maximum with −∞. -/
theorem max_ref (g : Fin 1024) :
    val_main_call3_v2 (F := Ideal) x0 x1 x2 x3 x4 x5 x6 x7 x8 x9 x10 (ix1 g) = rowMax (val_main_v104 (F := Ideal) x0 x1 x2 x3 x4 x5 x6) x7 (val_main_v106 (F := Ideal) x8) x9 (val_main_v111 (F := Ideal) x10) g := by
  rw [val_main_call3_v2_apply, val_main_call3_v1_apply, val_main_call3_cst_0_apply]
  unfold val_main_call3_v0 Cert.HeadSpec.rowMax
  have h : S1024x2.Reduces [1] S1024 := by decide
  rw [Host.reduce_eq_fold_single FloatOps.maximumf _ _ reducesTo_S1024x2_S1024_d1 h h_S_]
  show max (Ideal.ofBits .f32 0xFF800000#32)
      ((Finset.univ : Finset (Fin 2)).fold max (Ideal.ofBits .f32 0xFF800000#32)
        ((val_main_v113 (F := Ideal) x0 x1 x2 x3 x4 x5 x6 x7 x8 x9 x10) ∘ h.lift (ix1 g))) = _
  refine congrArg (max (Ideal.ofBits .f32 0xFF800000#32)) (Finset.fold_congr fun (k : Fin 2) _ => ?_)
  show val_main_v113 (F := Ideal) x0 x1 x2 x3 x4 x5 x6 x7 x8 x9 x10 (h.lift (ix1 g) k) = _
  have hk : h.lift (ix1 g) k = ix2 g k := funext fun c => Fin.ext (by
    refine (h.lift_val (ix1 g) k c).trans ?_
    match c with
    | ⟨0, _⟩ => rfl
    | ⟨1, _⟩ => rfl)
  rw [hk, logit_ref]

/-- The logits less their row maximum, at (g, j). -/
theorem shift_ref (g : Fin 1024) (j : Fin 2) :
    val_main_call3_v5 (F := Ideal) x0 x1 x2 x3 x4 x5 x6 x7 x8 x9 x10 (ix2 g j)
      = logit (val_main_v104 (F := Ideal) x0 x1 x2 x3 x4 x5 x6) x7 (val_main_v106 (F := Ideal) x8) x9 (val_main_v111 (F := Ideal) x10) g j - rowMax (val_main_v104 (F := Ideal) x0 x1 x2 x3 x4 x5 x6) x7 (val_main_v106 (F := Ideal) x8) x9 (val_main_v111 (F := Ideal) x10) g := by
  rw [val_main_call3_v5_apply, val_main_call3_v4_apply, val_main_call3_v3_apply, logit_ref]
  have e : idx_main_call3_v3 (idx_main_call3_v4 (ix2 g j)) = ix1 g :=
    funext fun a => Fin.ext (by match a with | ⟨0, _⟩ => rfl)
  rw [e, max_ref]
  rfl

/-- The reference's result at (g, q) is the head at (g, q). -/
theorem reference_head_entry (g : Fin 1024) (q : Fin 2) :
    val_main_v114 (F := Ideal) x0 x1 x2 x3 x4 x5 x6 x7 x8 x9 x10 (ix2 g q) = headSpec (val_main_v104 (F := Ideal) x0 x1 x2 x3 x4 x5 x6) x7 (val_main_v106 (F := Ideal) x8) x9 (val_main_v111 (F := Ideal) x10) g q := by
  rw [val_main_v114_apply, shift_ref, val_main_call3_v10_apply, val_main_call3_v9_apply, val_main_call3_v8_apply,
    val_main_call3_v7_apply, val_main_call3_cst_1_apply]
  have e : ∀ k : Fin 2, idx_main_call3_v7 (idx_main_call3_v8 (idx_main_call3_v10 (ix2 g q))) k = ix2 g k := fun k =>
    funext fun a => Fin.ext (by match a with | ⟨0, _⟩ => rfl | ⟨1, _⟩ => rfl)
  simp only [e, val_main_call3_v6_apply, shift_ref]
  unfold Cert.HeadSpec.headSpec
  simp only [Ideal.subf_def, Ideal.hostUnary_log_def, Ideal.hostUnary_exp_def, Ideal.ofBits_def, Ideal.ofBits_zero_f32, zero_add]

/-- The reference's result array is the head function, index by index. -/
theorem reference_head_array :
    val_main_v114 (F := Ideal) x0 x1 x2 x3 x4 x5 x6 x7 x8 x9 x10
      = fun i => headSpec (val_main_v104 (F := Ideal) x0 x1 x2 x3 x4 x5 x6) x7 (val_main_v106 (F := Ideal) x8) x9 (val_main_v111 (F := Ideal) x10) (⟨(i 0).val, (i 0).isLt⟩ : Fin 1024) (⟨(i 1).val, (i 1).isLt⟩ : Fin 2) := by
  funext i
  exact (congrArg (val_main_v114 (F := Ideal) x0 x1 x2 x3 x4 x5 x6 x7 x8 x9 x10) (eq_ix2 i)).trans
    (reference_head_entry x0 x1 x2 x3 x4 x5 x6 x7 x8 x9 x10 (i 0) (i 1))

end Cert.ReferenceIdeal.HeadReference

end
-- ==== Proof.RefLayers.lean ====
/-
  The reference's four dense steps, read as whole arrays of extended reals.

  A host dot_general of a [100000, 128] by a [128, 128] matrix is the matrix product rowsDot of its operands: entry
  (g, q) is the sum over k of the left operand at (g, k) times the right at (k, q).  Adding a bias vector laid as a row
  and repeated down the rows, then taking the maximum with the zero matrix (the reference's relu), is biasRelu of the
  operand and that row.  Both layers of the graph convolution have the same two steps.
-/
import proofs.«139044_j69286412419204_1_alg».proof.Proof.Gen.ReferenceIdeal.Read
import proofs.«139044_j69286412419204_1_alg».proof.Proof.LayerSpec

set_option maxRecDepth 16384

noncomputable section

namespace Cert.ReferenceIdeal.RefLayers

open Idealize.ShloMosaic Idealize.ShloMosaic.ValueIdx Cert.ReferenceIdeal Cert.ReferenceIdeal.Read Cert.LayerSpec

/-- The first projection x · W1. -/
theorem v17_eq (x0 : (⟨S100000x128, .f32⟩ : BufTy).Contents (Elt Ideal)) (x3 : (⟨S128x128, .f32⟩ : BufTy).Contents (Elt Ideal)) :
    val_main_v17 (F := Ideal) x0 x3 = rowsDot x0 x3 := by
  funext i
  rw [val_main_v17_apply]
  refine Finset.sum_congr rfl fun k _ => ?_
  have el : lidx_main_v17 i k = ix2 (⟨(i 0).val, (i 0).isLt⟩ : Fin 100000) k :=
    funext fun a => Fin.ext (by match a with | ⟨0, _⟩ => rfl | ⟨1, _⟩ => rfl)
  have er : ridx_main_v17 i k = ix2 k (⟨(i 1).val, (i 1).isLt⟩ : Fin 128) :=
    funext fun a => Fin.ext (by match a with | ⟨0, _⟩ => rfl | ⟨1, _⟩ => rfl)
  rw [el, er]

/-- The first layer's bias and relu: max (aggregated + b1) 0. -/
theorem v54_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) :
    val_main_v54 (F := Ideal) x0 x1 x3 x4 = biasRelu (val_main_v50 (F := Ideal) x0 x1 x3) (val_main_v51 (F := Ideal) x4) := by
  funext i
  rw [val_main_v54_apply, val_main_v53_apply, val_main_v52_apply, val_main_call0_v0_apply, val_main_call0_cst_apply]
  have e : idx_main_v52 i = ix2 (0 : Fin 1) (⟨(i 1).val, (i 1).isLt⟩ : Fin 128) :=
    funext fun a => Fin.ext (by match a with | ⟨0, _⟩ => rfl | ⟨1, _⟩ => rfl)
  rw [e]
  rfl

/-- The second projection h1 · W2. -/
theorem v55_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v55 (F := Ideal) x0 x1 x3 x4 x5 = rowsDot (val_main_v54 (F := Ideal) x0 x1 x3 x4) x5 := by
  funext i
  rw [val_main_v55_apply]
  refine Finset.sum_congr rfl fun k _ => ?_
  have el : lidx_main_v55 i k = ix2 (⟨(i 0).val, (i 0).isLt⟩ : Fin 100000) k :=
    funext fun a => Fin.ext (by match a with | ⟨0, _⟩ => rfl | ⟨1, _⟩ => rfl)
  have er : ridx_main_v55 i k = ix2 k (⟨(i 1).val, (i 1).isLt⟩ : Fin 128) :=
    funext fun a => Fin.ext (by match a with | ⟨0, _⟩ => rfl | ⟨1, _⟩ => rfl)
  rw [el, er]

/-- The second layer's bias and relu: max (aggregated + b2) 0. -/
theorem v92_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v92 (F := Ideal) x0 x1 x3 x4 x5 x6
      = biasRelu (val_main_v88 (F := Ideal) x0 x1 x3 x4 x5) (val_main_v89 (F := Ideal) x6) := by
  funext i
  rw [val_main_v92_apply, val_main_v91_apply, val_main_v90_apply, val_main_call1_v0_apply, val_main_call1_cst_apply]
  have e : idx_main_v90 i = ix2 (0 : Fin 1) (⟨(i 1).val, (i 1).isLt⟩ : Fin 128) :=
    funext fun a => Fin.ext (by match a with | ⟨0, _⟩ => rfl | ⟨1, _⟩ => rfl)
  rw [e]
  rfl

end Cert.ReferenceIdeal.RefLayers

end
-- ==== Proof.FoldA.lean ====
/-
  The kernel's buffers at its segment boundaries are the reference's stages (first half: through the second projection).

  The idealized kernel's @main and the reference's @main run the same host operations around the dense steps: the
  self-loop edge lists src / dst, the degree normalisation rsqrt(deg), the gather of projected rows along src, their
  scaling, and the scatter-add along dst.  Where the reference has a dot_general the kernel has a row-tiled matmul region,
  and where the reference adds a bias and applies relu the kernel has a row-tiled bias+relu region.  So, boundary by
  boundary, each buffer a later segment reads holds exactly the reference's stage of the same arguments: after the first
  host stretch the edge lists and the normalisation; after region 0 the projection x·W1 (the region's array is the
  matrix product of its two input arrays); after the second stretch the aggregated messages and the bias row; after
  region 1 the first layer's output; after region 2 its projection by W2.  A host stretch is read by evaluating its
  operations on the entry contents; a region by the closed form of its output array, taken here as a hypothesis on the
  region's proof data at an arbitrary entry valuation.
-/
import proofs.«139044_j69286412419204_1_alg».proof.Proof.Gen.KernelIdeal.Frame
import proofs.«139044_j69286412419204_1_alg».proof.Proof.Gen.ReferenceIdeal.Read
import proofs.«139044_j69286412419204_1_alg».proof.Proof.LayerSpec
import proofs.«139044_j69286412419204_1_alg».proof.Proof.RefLayers
import proofs.«139044_j69286412419204_1_alg».proof.Proof.LibDenseBias
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.LayerSpec

/-- The buffer contents a region finds when it is entered. -/
abbrev EntryVal := (c : Dev nD) → (b : Ref sig .tc) → Buf (Elt Ideal) ((c : Thread nD τ).loc b)

/-- Region 0 (and likewise region 2) leaves in its output array the matrix product of its two input arrays. -/
def Region0Fact : Prop := ∀ (V : EntryVal) (c : Dev nD) (A : S100000x128.Idx → EReal) (B : S128x128.Idx → EReal),
  V c main_arg0 = A → V c main_arg3 = B → (dat0 (F := Ideal) V c).arrAt 2 cfg0.N = rowsDot A B
def Region2Fact : Prop := ∀ (V : EntryVal) (c : Dev nD) (A : S100000x128.Idx → EReal) (B : S128x128.Idx → EReal),
  V c main_v52 = A → V c main_arg5 = B → (dat2 (F := Ideal) V c).arrAt 2 cfg2.N = rowsDot A B
/-- Region 1 (and likewise region 3) leaves in its output array its input plus the bias row, clipped at zero. -/
def Region1Fact : Prop := ∀ (V : EntryVal) (c : Dev nD) (X : S100000x128.Idx → EReal) (r : S1x128.Idx → EReal),
  V c main_v50 = X → V c main_v51 = r → (dat1 (F := Ideal) V c).arrAt 2 cfg1.N = biasRelu X r
def Region3Fact : Prop := ∀ (V : EntryVal) (c : Dev nD) (X : S100000x128.Idx → EReal) (r : S1x128.Idx → EReal),
  V c main_v86 = X → V c main_v87 = r → (dat3 (F := Ideal) V c).arrAt 2 cfg3.N = biasRelu X r

/-- No operation of a host stretch writes the buffer: decided operation by operation. -/
macro "not_written" : tactic => `(tactic| (
  refine List.forall_iff_forall_mem.mp ?_
  simp only [hostOps0, hostOps1, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## A buffer that no host operation writes and no region stages keeps its launch contents -/

theorem keep1 (b : Ref sig .tc)
    (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0

theorem keep2 (b : Ref sig .tc)
    (h0 : ∀ op ∈ (hostOps0 : List (HloOp τ sig (Elt Ideal))), Proc.devRef .tc b ∉ op.writes)
    (r0 : ∀ w, Pipeline.arrRef spec0 w ≠ b) :
    W2 m ρ c (Proc.devRef .tc b) = m ((c : Thread nD τ).loc b) :=
  (W2_of_ne m ρ c b r0).trans (keep1 m ρ c b h0)

theorem keep3 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (r0 : ∀ w, Pipeline.arrRef spec0 w ≠ b) :
    W3 m ρ c (Proc.devRef .tc b) = m ((c : Thread nD τ).loc b) :=
  (StableHlo.after_of_forall_not_mem _ _ h1).trans (keep2 m ρ c b h0 r0)

theorem keep4 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (r0 : ∀ w, Pipeline.arrRef spec0 w ≠ b) (r1 : ∀ w, Pipeline.arrRef spec1 w ≠ b) :
    W4 m ρ c (Proc.devRef .tc b) = m ((c : Thread nD τ).loc b) :=
  (W4_of_ne m ρ c b r1).trans (keep3 m ρ c b h0 h1 r0)

theorem keep5 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (r0 : ∀ w, Pipeline.arrRef spec0 w ≠ b) (r1 : ∀ w, Pipeline.arrRef spec1 w ≠ b) (r2 : ∀ w, Pipeline.arrRef spec2 w ≠ b) :
    W5 m ρ c (Proc.devRef .tc b) = m ((c : Thread nD τ).loc b) :=
  (W5_of_ne m ρ c b r2).trans (keep4 m ρ c b h0 h1 r0 r1)

/-! ## After the first host stretch: the edge lists with self loops, and the degree normalisation -/

open Cert.ReferenceIdeal.Read in
theorem W1_v3 : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  simp only [val_main_v3, val_main_v2, val_main_v1, val_main_v0]
  rfl

open Cert.ReferenceIdeal.Read in
theorem W1_v6 : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp
  simp only [val_main_v6, val_main_v5, val_main_v4, val_main_v0]
  rfl

open Cert.ReferenceIdeal.Read in
theorem W1_v16 : W1 m ρ c (Proc.devRef .tc main_v16)
    = Cert.ReferenceIdeal.Read.val_main_v16 (F := Ideal) (m ((c : Thread nD τ).loc main_arg1)) := by
  show StableHlo.after hostOps0 (W0 m ρ c) (Proc.devRef .tc main_v16) = _
  after_results_simp
  simp only [val_main_v4, val_main_v5, val_main_v6, val_main_cst, val_main_v7, val_main_c, val_main_v8, val_main_v9, val_main_c_0, val_main_v10, val_main_v11, val_main_v12, val_main_v13, val_main_cst_1, val_main_v14, val_main_v15, val_main_v16, val_main_v0]
  rfl

/-! ## After region 0: the projection x · W1; the edge lists and the normalisation are untouched -/

theorem W2_v17 (H0 : Region0Fact) : W2 m ρ c (Proc.devRef .tc main_v17)
    = Cert.ReferenceIdeal.Read.val_main_v17 (F := Ideal) (m ((c : Thread nD τ).loc main_arg0)) (m ((c : Thread nD τ).loc main_arg3)) :=
  (W2_arr m ρ c 2).trans ((H0 (V1 m ρ) c _ _ (keep1 m ρ c main_arg0 (by not_written)) (keep1 m ρ c main_arg3 (by not_written))).trans
    (Cert.ReferenceIdeal.RefLayers.v17_eq _ _).symm)

theorem W2_v3 : W2 m ρ c (Proc.devRef .tc main_v3)
    = Cert.ReferenceIdeal.Read.val_main_v3 (F := Ideal) (m ((c : Thread nD τ).loc main_arg1)) :=
  (W2_of_ne m ρ c main_v3 (by decide)).trans (W1_v3 m ρ c)
theorem W2_v6 : W2 m ρ c (Proc.devRef .tc main_v6)
    = Cert.ReferenceIdeal.Read.val_main_v6 (F := Ideal) (m ((c : Thread nD τ).loc main_arg1)) :=
  (W2_of_ne m ρ c main_v6 (by decide)).trans (W1_v6 m ρ c)
theorem W2_v16 : W2 m ρ c (Proc.devRef .tc main_v16)
    = Cert.ReferenceIdeal.Read.val_main_v16 (F := Ideal) (m ((c : Thread nD τ).loc main_arg1)) :=
  (W2_of_ne m ρ c main_v16 (by decide)).trans (W1_v16 m ρ c)

/-! ## After the second host stretch: the aggregated messages of layer 1, and the bias row -/

open Cert.ReferenceIdeal.Read in
theorem W3_v50 (H0 : Region0Fact) : W3 m ρ c (Proc.devRef .tc main_v50)
    = Cert.ReferenceIdeal.Read.val_main_v50 (F := Ideal) (m ((c : Thread nD τ).loc main_arg0)) (m ((c : Thread nD τ).loc main_arg1)) (m ((c : Thread nD τ).loc main_arg3)) := by
  show StableHlo.after hostOps1 (W2 m ρ c) (Proc.devRef .tc main_v50) = _
  after_results_simp
  rw [W2_v17 m ρ c H0, W2_v3 m ρ c, W2_v6 m ρ c, W2_v16 m ρ c]
  simp only [val_main_c_2, val_main_v18, val_main_v19, val_main_c_3, val_main_v20, val_main_v21, val_main_v22, val_main_v23, val_main_v24, val_main_c_4, val_main_v25, val_main_v26, val_main_c_5, val_main_v27, val_main_v28, val_main_v29, val_main_v30, val_main_v31, val_main_v32, val_main_c_6, val_main_v33, val_main_v34, val_main_c_7, val_main_v35, val_main_v36, val_main_v37, val_main_v38, val_main_v39, val_main_v40, val_main_v41, val_main_v42, val_main_cst_8, val_main_v43, val_main_c_9, val_main_v44, val_main_v45, val_main_c_10, val_main_v46, val_main_v47, val_main_v48, val_main_v49, val_main_v50]
  rfl

/-- The bias vector laid as a row by a reshape is the row the reference lays by a broadcast along the last axis. -/
theorem W3_v51 : W3 m ρ c (Proc.devRef .tc main_v51)
    = Cert.ReferenceIdeal.Read.val_main_v51 (F := Ideal) (m ((c : Thread nD τ).loc main_arg4)) := by
  show StableHlo.after hostOps1 (W2 m ρ c) (Proc.devRef .tc main_v51) = _
  after_results_simp
  rw [keep2 m ρ c main_arg4 (by not_written) (by decide)]
  exact Cert.Lib.DenseBias.bias_row_eq (b := 128) _ _ _

/-! ## After region 1: the first layer's output; after region 2: its projection by W2 -/

theorem W4_v52 (H0 : Region0Fact) (H1 : Region1Fact) : W4 m ρ c (Proc.devRef .tc main_v52)
    = Cert.ReferenceIdeal.Read.val_main_v54 (F := Ideal) (m ((c : Thread nD τ).loc main_arg0)) (m ((c : Thread nD τ).loc main_arg1)) (m ((c : Thread nD τ).loc main_arg3)) (m ((c : Thread nD τ).loc main_arg4)) :=
  (W4_arr m ρ c 2).trans ((H1 (V3 m ρ) c _ _ (W3_v50 m ρ c H0) (W3_v51 m ρ c)).trans
    (Cert.ReferenceIdeal.RefLayers.v54_eq _ _ _ _).symm)

theorem W5_v53 (H0 : Region0Fact) (H1 : Region1Fact) (H2 : Region2Fact) : W5 m ρ c (Proc.devRef .tc main_v53)
    = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W5_arr m ρ c 2).trans ((H2 (V4 m ρ) c _ _ (W4_v52 m ρ c H0 H1)
      (keep4 m ρ c main_arg5 (by not_written) (by not_written) (by decide) (by decide))).trans
    (Cert.ReferenceIdeal.RefLayers.v55_eq _ _ _ _ _).symm)

/-- The edge lists and the normalisation, computed before region 0, are still there after region 2. -/
theorem W5_v3 : W5 m ρ c (Proc.devRef .tc main_v3)
    = Cert.ReferenceIdeal.Read.val_main_v3 (F := Ideal) (m ((c : Thread nD τ).loc main_arg1)) :=
  (W5_of_ne m ρ c main_v3 (by decide)).trans ((W4_of_ne m ρ c main_v3 (by decide)).trans
    ((StableHlo.after_of_forall_not_mem (b := Proc.devRef .tc main_v3) _ _ (by not_written)).trans (W2_v3 m ρ c)))
theorem W5_v6 : W5 m ρ c (Proc.devRef .tc main_v6)
    = Cert.ReferenceIdeal.Read.val_main_v6 (F := Ideal) (m ((c : Thread nD τ).loc main_arg1)) :=
  (W5_of_ne m ρ c main_v6 (by decide)).trans ((W4_of_ne m ρ c main_v6 (by decide)).trans
    ((StableHlo.after_of_forall_not_mem (b := Proc.devRef .tc main_v6) _ _ (by not_written)).trans (W2_v6 m ρ c)))
theorem W5_v16 : W5 m ρ c (Proc.devRef .tc main_v16)
    = Cert.ReferenceIdeal.Read.val_main_v16 (F := Ideal) (m ((c : Thread nD τ).loc main_arg1)) :=
  (W5_of_ne m ρ c main_v16 (by decide)).trans ((W4_of_ne m ρ c main_v16 (by decide)).trans
    ((StableHlo.after_of_forall_not_mem (b := Proc.devRef .tc main_v16) _ _ (by not_written)).trans (W2_v16 m ρ c)))

end Cert.Bridge

end
-- ==== Proof.FoldB.lean ====
/-
  The kernel's buffers at its segment boundaries are the reference's stages (second half: from the second aggregation
  to the result).

  After the third host stretch the second layer's aggregated messages (the rows of h1·W2 gathered along src, scaled by
  the edge normalisation, scatter-added along dst) and the second bias row; after region 3 the second layer's output;
  after the last host stretch the mean-pooled graph embeddings (segment sums over the batch vector divided by the
  clipped segment counts) and the two head bias rows; after region 4 the log-probabilities.  The last region's array
  is the head specification of its five input arrays, and so is the reference's result of the same arrays.
-/
import proofs.«139044_j69286412419204_1_alg».proof.Proof.FoldA
import proofs.«139044_j69286412419204_1_alg».proof.Proof.HeadSpec

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.LayerSpec

/-- Region 4 leaves in its output array the head specification of its five input arrays. -/
def Region4Fact : Prop := ∀ (V : EntryVal) (c : Dev nD) (P : S1024x128.Idx → EReal) (W1 : S128x128.Idx → EReal)
    (r1 : S1x128.Idx → EReal) (W2 : S128x2.Idx → EReal) (r2 : S1x2.Idx → EReal),
  V c main_v100 = P → V c main_arg7 = W1 → V c main_v101 = r1 → V c main_arg9 = W2 → V c main_v102 = r2 →
  (dat4 (F := Ideal) V c).arrAt 5 cfg4.N
    = fun i => Cert.HeadSpec.headSpec P W1 r1 W2 r2 (⟨(i 0).val, (i 0).isLt⟩ : Fin 1024) (⟨(i 1).val, (i 1).isLt⟩ : Fin 2)

variable (m : (ℓ : Loc nD τ sig) → Buf (Elt Ideal) ℓ) (ρ : Dev nD → PrngReg) (c : Dev nD)

/-! ## A buffer that no host operation writes and no region stages keeps its launch contents (continued) -/

theorem keep6 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h3 : ∀ op ∈ (hostOps3 : List (HloOp τ sig (Elt Ideal))), Proc.devRef .tc b ∉ op.writes)
    (r0 : ∀ w, Pipeline.arrRef spec0 w ≠ b) (r1 : ∀ w, Pipeline.arrRef spec1 w ≠ b) (r2 : ∀ w, Pipeline.arrRef spec2 w ≠ b) :
    W6 m ρ c (Proc.devRef .tc b) = m ((c : Thread nD τ).loc b) :=
  (StableHlo.after_of_forall_not_mem _ _ h3).trans (keep5 m ρ c b h0 h1 r0 r1 r2)

theorem keep7 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h3 : ∀ op ∈ (hostOps3 : List (HloOp τ sig (Elt Ideal))), Proc.devRef .tc b ∉ op.writes)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) :
    W7 m ρ c (Proc.devRef .tc b) = m ((c : Thread nD τ).loc b) :=
  (W7_of_ne m ρ c b r3).trans (keep6 m ρ c b h0 h1 h3 r0 r1 r2)

theorem keep8 (b : Ref sig .tc)
    (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h3 : ∀ op ∈ (hostOps3 : List (HloOp τ sig (Elt Ideal))), Proc.devRef .tc b ∉ op.writes)
    (h4 : ∀ op ∈ (hostOps4 : List (HloOp τ sig (Elt Ideal))), Proc.devRef .tc b ∉ op.writes)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) :
    W8 m ρ c (Proc.devRef .tc b) = m ((c : Thread nD τ).loc b) :=
  (StableHlo.after_of_forall_not_mem _ _ h4).trans (keep7 m ρ c b h0 h1 h3 r0 r1 r2 r3)

/-! ## After the third host stretch: the aggregated messages of layer 2, and the second bias row -/

open Cert.ReferenceIdeal.Read in
theorem W6_v86 (H0 : Region0Fact) (H1 : Region1Fact) (H2 : Region2Fact) : W6 m ρ c (Proc.devRef .tc main_v86)
    = Cert.ReferenceIdeal.Read.val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v86) = _
  after_results_simp
  rw [W5_v53 m ρ c H0 H1 H2, W5_v3 m ρ c, W5_v6 m ρ c, W5_v16 m ρ c]
  simp only [val_main_c_11, val_main_v56, val_main_v57, val_main_c_12, val_main_v58, val_main_v59, val_main_v60, val_main_v61, val_main_v62, val_main_c_13, val_main_v63, val_main_v64, val_main_c_14, val_main_v65, val_main_v66, val_main_v67, val_main_v68, val_main_v69, val_main_v70, val_main_c_15, val_main_v71, val_main_v72, val_main_c_16, val_main_v73, val_main_v74, val_main_v75, val_main_v76, val_main_v77, val_main_v78, val_main_v79, val_main_v80, val_main_cst_17, val_main_v81, val_main_c_18, val_main_v82, val_main_v83, val_main_c_19, val_main_v84, val_main_v85, val_main_v86, val_main_v87, val_main_v88]
  rfl

theorem W6_v87 : W6 m ρ c (Proc.devRef .tc main_v87)
    = Cert.ReferenceIdeal.Read.val_main_v89 (F := Ideal) (m ((c : Thread nD τ).loc main_arg6)) := by
  show StableHlo.after hostOps3 (W5 m ρ c) (Proc.devRef .tc main_v87) = _
  after_results_simp
  rw [keep5 m ρ c main_arg6 (by not_written) (by not_written) (by decide) (by decide) (by decide)]
  exact Cert.Lib.DenseBias.bias_row_eq (b := 128) _ _ _

/-! ## After region 3: the second layer's output -/

theorem W7_v88 (H0 : Region0Fact) (H1 : Region1Fact) (H2 : Region2Fact) (H3 : Region3Fact) :
    W7 m ρ c (Proc.devRef .tc main_v88)
    = Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W7_arr m ρ c 2).trans ((H3 (V6 m ρ) c _ _ (W6_v86 m ρ c H0 H1 H2) (W6_v87 m ρ c)).trans
    (Cert.ReferenceIdeal.RefLayers.v92_eq _ _ _ _ _ _).symm)

/-! ## After the last host stretch: the pooled embeddings and the head's bias rows -/

open Cert.ReferenceIdeal.Read in
theorem W8_v100 (H0 : Region0Fact) (H1 : Region1Fact) (H2 : Region2Fact) (H3 : Region3Fact) :
    W8 m ρ c (Proc.devRef .tc main_v100)
    = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v100) = _
  after_results_simp
  rw [W7_v88 m ρ c H0 H1 H2 H3,
    keep7 m ρ c main_arg2 (by not_written) (by not_written) (by not_written) (by decide) (by decide) (by decide) (by decide)]
  simp only [val_main_cst_20, val_main_v93, val_main_v94, val_main_v95, val_main_cst_21, val_main_v96, val_main_cst_22, val_main_v97, val_main_v98, val_main_v99, val_main_cst_23, val_main_v100, val_main_v101, val_main_v102, val_main_v103, val_main_v104]
  rfl

theorem W8_v101 : W8 m ρ c (Proc.devRef .tc main_v101)
    = Cert.ReferenceIdeal.Read.val_main_v106 (F := Ideal) (m ((c : Thread nD τ).loc main_arg8)) := by
  show StableHlo.after hostOps4 (W7 m ρ c) (Proc.devRef .tc main_v101) = _
  after_results_simp
  rw [keep7 m ρ c main_arg8 (by not_written) (by not_written) (by not_written) (by decide) (by decide) (by decide) (by decide)]
  exact Cert.Lib.DenseBias.bias_row_eq (b := 128) _ _ _

theorem W8_v102 : W8 m ρ c (Proc.devRef .tc main_v102)
    = Cert.ReferenceIdeal.Read.val_main_v111 (F := Ideal) (m ((c : Thread nD τ).loc main_arg10)) := by
  show StableHlo.after hostOps4 (W7 m ρ c) (Proc.devRef .tc main_v102) = _
  after_results_simp
  rw [keep7 m ρ c main_arg10 (by not_written) (by not_written) (by not_written) (by decide) (by decide) (by decide) (by decide)]
  exact Cert.Lib.DenseBias.bias_row_eq (b := 2) _ _ _

/-! ## After region 4: the result -/

/-- The result buffer at the last boundary is the head specification of the reference's pooled embeddings, the two
    head weight matrices and the two bias rows. -/
theorem W9_v103 (H0 : Region0Fact) (H1 : Region1Fact) (H2 : Region2Fact) (H3 : Region3Fact) (H4 : Region4Fact) :
    W9 m ρ c (Proc.devRef .tc main_v103)
    = fun i => Cert.HeadSpec.headSpec
        (Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (m ((c : Thread nD τ).loc main_arg7))
        (Cert.ReferenceIdeal.Read.val_main_v106 (F := Ideal) (m ((c : Thread nD τ).loc main_arg8)))
        (m ((c : Thread nD τ).loc main_arg9))
        (Cert.ReferenceIdeal.Read.val_main_v111 (F := Ideal) (m ((c : Thread nD τ).loc main_arg10)))
        (⟨(i 0).val, (i 0).isLt⟩ : Fin 1024) (⟨(i 1).val, (i 1).isLt⟩ : Fin 2) :=
  (W9_arr m ρ c 5).trans (H4 (V8 m ρ) c _ _ _ _ _ (W8_v100 m ρ c H0 H1 H2 H3)
    (keep8 m ρ c main_arg7 (by not_written) (by not_written) (by not_written) (by not_written) (by decide) (by decide) (by decide) (by decide))
    (W8_v101 m ρ c)
    (keep8 m ρ c main_arg9 (by not_written) (by not_written) (by not_written) (by not_written) (by decide) (by decide) (by decide) (by decide))
    (W8_v102 m ρ c))

end Cert.Bridge

end
-- ==== Proof.lean ====
/-
  The certificate of a two-layer graph convolution with mean pooling and a two-class head.

  The kernel program computes the degree normalisation, the gathers along the edge list and the scatter-adds on the host,
  and runs five pipelined regions: the projection x·W1 tiled over rows, the bias and relu of the first layer, the
  projection h1·W2, the bias and relu of the second layer, and one region for the head (two dense layers and a
  log-softmax over the two classes).  The reference computes the same network with host operations only.  Read on the
  extended reals the two agree entry by entry with no algebraic law beyond the definitions: a matmul into a zero
  accumulator of operands narrowed to bf16 is the same sum of products as the host's dot_general (narrowing is the
  identity there), a lane reduction is the host's reduction, and every other operation is the same pointwise operation
  on both sides.  The precondition (finite inputs) is never opened.

  The three frame claims are the generated frames (the reference's is its run with the result dropped); the kernel's
  idealization rewrote nothing, so that claim is trivial; the value claim runs the kernel to its last segment boundary,
  reads the result buffer there stage by stage against the reference's named stages, and meets the reference's run.
-/
import proofs.«139044_j69286412419204_1_alg».proof.Defs
import proofs.«139044_j69286412419204_1_alg».proof.Proof.Gen.Kernel
import proofs.«139044_j69286412419204_1_alg».proof.Proof.Gen.Kernel.Skeleton
import proofs.«139044_j69286412419204_1_alg».proof.Proof.Gen.Kernel.Launch
import proofs.«139044_j69286412419204_1_alg».proof.Proof.Gen.Kernel.Points
import proofs.«139044_j69286412419204_1_alg».proof.Proof.Gen.Kernel.Frame
import proofs.«139044_j69286412419204_1_alg».proof.Proof.Gen.KernelIdeal
import proofs.«139044_j69286412419204_1_alg».proof.Proof.Gen.KernelIdeal.Skeleton
import proofs.«139044_j69286412419204_1_alg».proof.Proof.Gen.KernelIdeal.Launch
import proofs.«139044_j69286412419204_1_alg».proof.Proof.Gen.KernelIdeal.Points
import proofs.«139044_j69286412419204_1_alg».proof.Proof.Gen.KernelIdeal.Frame
import proofs.«139044_j69286412419204_1_alg».proof.Proof.Gen.ReferenceIdeal
import proofs.«139044_j69286412419204_1_alg».proof.Proof.Gen.ReferenceIdeal.Run
import proofs.«139044_j69286412419204_1_alg».proof.Proof.Gen.ReferenceIdeal.Read
import proofs.«139044_j69286412419204_1_alg».proof.Proof.Gen.Pre_finite_inputs
import proofs.«139044_j69286412419204_1_alg».proof.Proof.KernelRun
import proofs.«139044_j69286412419204_1_alg».proof.Proof.MatmulRegions
import proofs.«139044_j69286412419204_1_alg».proof.Proof.BiasReluRegions
import proofs.«139044_j69286412419204_1_alg».proof.Proof.HeadKernel
import proofs.«139044_j69286412419204_1_alg».proof.Proof.HeadReference
import proofs.«139044_j69286412419204_1_alg».proof.Proof.FoldB
import Idealize.ShloMosaic.Adequacy
import Idealize.ShloMosaic.Init

set_option maxRecDepth 16384

noncomputable section

namespace Cert.Proof

open Idealize.ShloMosaic Idealize.ShloMosaic.TcCoe Idealize.SL.Sem

/-! ## The five regions' closed forms, as the fold takes them -/

theorem region0 : Cert.Bridge.Region0Fact := fun V c A B hA hB => Cert.KernelIdeal.MatmulRegions.region0_array V c A B hA hB
theorem region1 : Cert.Bridge.Region1Fact := fun V c X r hX hr => Cert.KernelIdeal.BiasReluRegions.region1_array V c X r hX hr
theorem region2 : Cert.Bridge.Region2Fact := fun V c A B hA hB => Cert.KernelIdeal.MatmulRegions.region2_array V c A B hA hB
theorem region3 : Cert.Bridge.Region3Fact := fun V c X r hX hr => Cert.KernelIdeal.BiasReluRegions.region3_array V c X r hX hr
theorem region4 : Cert.Bridge.Region4Fact := fun V c P W1 r1 W2 r2 hP h1 hr1 h2 hr2 =>
  Cert.KernelIdeal.HeadKernel.region4_array V c P W1 r1 W2 r2 hP h1 hr1 h2 hr2

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same [1024, 2] array of log-probabilities: the kernel's result buffer at its last
    segment boundary is the head specification of the reference's pooled embeddings, and so is the reference's result. -/
theorem algebraic : Cert.algebraic_KernelIdeal_ReferenceIdeal := by
  intro m ρ m' ρ' _ hagree
  refine ⟨fun c => Cert.KernelIdeal.Gen.W9 m ρ c (Proc.devRef .tc Cert.KernelIdeal.main_v103),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v114_eq, e0, e1, e2, e3, e4, e5, e6, e7, e8, e9, e10]
  refine Eq.trans ?_ (Cert.Bridge.W9_v103 m ρ c region0 region1 region2 region3 region4).symm
  exact Cert.ReferenceIdeal.HeadReference.reference_head_array _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
